-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x6783 : Shape := ⟨3, ![1, 1, 6783]⟩
abbrev S_ : Shape := ⟨0, ![]⟩

class Facts : Prop where
  bcast_S_S1x1x6783 : S_.BroadcastsInDim S1x1x6783 (![] : Fin 0 → Fin S1x1x6783.rank)
  reducesTo_S1x1x6783_S_d0_1_2 : S1x1x6783.ReducesTo [0, 1, 2] S_
  h_S_ : 0 < S_.numel
  reducesTo_S_S_d : S_.ReducesTo [] S_

variable [Facts]

def fn {F : FTy → Type} [FloatOps F] (main_arg0 : FVec F S1x1x6783 .f32) (main_arg1 : FVec F S_ .f32) : IVec S_ 1 :=
  let main_v0 : FVec F S1x1x6783 .f32 := Host.absf main_arg0
  let main_cst : FVec F S_ .f32 := constant S_ .f32 0x7F800000#32
  let main_v1 : FVec F S1x1x6783 .f32 := broadcastInDim S1x1x6783 ![] bcast_S_S1x1x6783 main_cst
  let main_v2 : IVec S1x1x6783 1 := cmpf .olt main_v0 main_v1
  let main_c : IVec S_ 1 := constantI S_ 1 1#1
  let main_v3 : IVec S_ 1 := (fun x v => Host.reduce IntOp.andi x v reducesTo_S1x1x6783_S_d0_1_2 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S1x1x6783 : Shape := ⟨3, ![1, 1, 6783]⟩
abbrev S_ : Shape := ⟨0, ![]⟩
abbrev S1x6783 : Shape := ⟨2, ![1, 6783]⟩
abbrev S1x6795 : Shape := ⟨2, ![1, 6795]⟩
abbrev S9x755 : Shape := ⟨2, ![9, 755]⟩
abbrev S1 : Shape := ⟨1, ![1]⟩
abbrev S9 : Shape := ⟨1, ![9]⟩
abbrev S9x1 : Shape := ⟨2, ![9, 1]⟩
abbrev S1x1 : Shape := ⟨2, ![1, 1]⟩
abbrev S755 : Shape := ⟨1, ![755]⟩
abbrev S1x755 : Shape := ⟨2, ![1, 755]⟩

abbrev nBuf : Space → Nat
  | .hbm => 48
  | .vmem => 3
  | .smem => 0
  | _ => 0

abbrev bufTy : (tb : Table) → Fin (tcTables nBuf tb) → BufTy
  | .hbm, ⟨0, _⟩ => ⟨S1x1x6783, .f32⟩
  | .hbm, ⟨1, _⟩ => ⟨S_, .f32⟩
  | .hbm, ⟨2, _⟩ => ⟨S1x6783, .f32⟩
  | .hbm, ⟨3, _⟩ => ⟨S_, .i32⟩
  | .hbm, ⟨4, _⟩ => ⟨S_, .f32⟩
  | .hbm, ⟨5, _⟩ => ⟨S1x6795, .f32⟩
  | .hbm, ⟨6, _⟩ => ⟨S9x755, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S9, .f32⟩
  | .hbm, ⟨45, _⟩ => ⟨S9x1, .f32⟩
  | .hbm, ⟨46, _⟩ => ⟨S1x1, .f32⟩
  | .hbm, ⟨47, _⟩ => ⟨S_, .f32⟩
  | .local _ .vmem, ⟨0, _⟩ => ⟨S9x755, .f32⟩
  | .local _ .vmem, ⟨1, _⟩ => ⟨S9x1, .f32⟩
  | .local _ .vmem, ⟨2, _⟩ => ⟨S1x1, .f32⟩
  | _, _ => ⟨S1x1x6783, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S9x755 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x1x6783_S1x6783 : S1x1x6783.ShapeCasts S1x6783
  pads_S1x6783_S1x6795_000_1200 : S1x6783.Pads (![0, 12] : Fin 2 → Nat) ![0, 0] ![0, 0] S1x6795
  h_S_ : 0 < S_.numel
  shapeCasts_S1x6795_S9x755 : S1x6795.ShapeCasts S9x755
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0
  shapeCasts_S9_S9x1 : S9.ShapeCasts S9x1
  inb_S9x755_S9x755_0_0 : ∀ a, (![0, 0] : Fin 2 → Nat) a + S9x755.size a ≤ S9x755.size a
  h_S9x755 : 0 < S9x755.numel
  shapeCasts_S9x755_S9x755 : S9x755.ShapeCasts S9x755
  inb_S9x1_S9x1_0_0 : ∀ a, (![0, 0] : Fin 2 → Nat) a + S9x1.size a ≤ S9x1.size a
  h_S9x1 : 0 < S9x1.numel
  shapeCasts_S9x1_S9x1 : S9x1.ShapeCasts S9x1
  broadcasts_S9x1_S9x755 : S9x1.Broadcasts S9x755
  reduces_S9x755_S755 : S9x755.Reduces [0] S755
  shapeCasts_S755_S1x755 : S755.ShapeCasts S1x755
  reduces_S1x755_S1 : S1x755.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S9x755.size a ≤ S9x755.size a
  hwx0_0 : ∀ i : grid0.Coords, EltTy.bits .f32 = 32 ∨ (Rect.block (s := S9x755) S9x755.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x1.size a ≤ S9x1.size a
  hwx0_1 : ∀ i : grid0.Coords, EltTy.bits .f32 = 32 ∨ (Rect.block (s := S9x1) S9x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v2) S9x755.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v40) S9x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1x6783 : Shape := ⟨3, ![1, 1, 6783]⟩
abbrev S_ : Shape := ⟨0, ![]⟩
abbrev S6783x6783 : Shape := ⟨2, ![6783, 6783]⟩
abbrev S6783 : Shape := ⟨1, ![6783]⟩
abbrev S6783x1 : Shape := ⟨2, ![6783, 1]⟩
abbrev S6028 : Shape := ⟨1, ![6028]⟩
abbrev S5273 : Shape := ⟨1, ![5273]⟩
abbrev S4518 : Shape := ⟨1, ![4518]⟩
abbrev S3763 : Shape := ⟨1, ![3763]⟩
abbrev S3008 : Shape := ⟨1, ![3008]⟩
abbrev S2253 : Shape := ⟨1, ![2253]⟩
abbrev S1498 : Shape := ⟨1, ![1498]⟩
abbrev S743 : Shape := ⟨1, ![743]⟩
abbrev S1x1x755 : Shape := ⟨3, ![1, 1, 755]⟩
abbrev S755 : Shape := ⟨1, ![755]⟩

abbrev nBuf : Space → Nat
  | .hbm => 200
  | .vmem => 0
  | .smem => 0
  | _ => 0

abbrev hbmTy0_0 (i : Nat) : BufTy := match i % 128 with
  | 0 => ⟨S1x1x6783, .f32⟩
  | 1 => ⟨S_, .f32⟩
  | 2 => ⟨S_, .f32⟩
  | 3 => ⟨S6783x6783, .f32⟩
  | 4 => ⟨S_, .f32⟩
  | 5 => ⟨S_, .f32⟩
  | 6 => ⟨S_, .f32⟩
  | 7 => ⟨S6783, .f32⟩
  | 8 => ⟨S6783, .f32⟩
  | 9 => ⟨S6783, .f32⟩
  | 10 => ⟨S_, .f32⟩
  | 11 => ⟨S6783, .f32⟩
  | 12 => ⟨S6783x6783, .i32⟩
  | 13 => ⟨S6783x6783, .i32⟩
  | 14 => ⟨S_, .i32⟩
  | 15 => ⟨S6783x6783, .i32⟩
  | 16 => ⟨S6783x6783, .i32⟩
  | 17 => ⟨S6783x6783, .i1⟩
  | 18 => ⟨S6783x1, .f32⟩
  | 19 => ⟨S_, .f32⟩
  | 20 => ⟨S6783x6783, .f32⟩
  | 21 => ⟨S6783x6783, .f32⟩
  | 22 => ⟨S6783x6783, .f32⟩
  | 23 => ⟨S6783x6783, .f32⟩
  | 24 => ⟨S_, .f32⟩
  | 25 => ⟨S_, .f32⟩
  | 26 => ⟨S6028, .f32⟩
  | 27 => ⟨S6028, .f32⟩
  | 28 => ⟨S6028, .f32⟩
  | 29 => ⟨S_, .f32⟩
  | 30 => ⟨S6783, .f32⟩
  | 31 => ⟨S6783x6783, .i32⟩
  | 32 => ⟨S6783x6783, .i32⟩
  | 33 => ⟨S_, .i32⟩
  | 34 => ⟨S6783x6783, .i32⟩
  | 35 => ⟨S6783x6783, .i32⟩
  | 36 => ⟨S6783x6783, .i1⟩
  | 37 => ⟨S6783x1, .f32⟩
  | 38 => ⟨S_, .f32⟩
  | 39 => ⟨S6783x6783, .f32⟩
  | 40 => ⟨S6783x6783, .f32⟩
  | 41 => ⟨S6783x6783, .f32⟩
  | 42 => ⟨S6783x6783, .f32⟩
  | 43 => ⟨S_, .f32⟩
  | 44 => ⟨S_, .f32⟩
  | 45 => ⟨S_, .f32⟩
  | 46 => ⟨S5273, .f32⟩
  | 47 => ⟨S5273, .f32⟩
  | 48 => ⟨S5273, .f32⟩
  | 49 => ⟨S_, .f32⟩
  | 50 => ⟨S6783, .f32⟩
  | 51 => ⟨S6783x6783, .i32⟩
  | 52 => ⟨S6783x6783, .i32⟩
  | 53 => ⟨S_, .i32⟩
  | 54 => ⟨S6783x6783, .i32⟩
  | 55 => ⟨S6783x6783, .i32⟩
  | 56 => ⟨S6783x6783, .i1⟩
  | 57 => ⟨S6783x1, .f32⟩
  | 58 => ⟨S_, .f32⟩
  | 59 => ⟨S6783x6783, .f32⟩
  | 60 => ⟨S6783x6783, .f32⟩
  | 61 => ⟨S6783x6783, .f32⟩
  | 62 => ⟨S6783x6783, .f32⟩
  | 63 => ⟨S_, .f32⟩
  | 64 => ⟨S_, .f32⟩
  | 65 => ⟨S_, .f32⟩
  | 66 => ⟨S_, .f32⟩
  | 67 => ⟨S4518, .f32⟩
  | 68 => ⟨S4518, .f32⟩
  | 69 => ⟨S4518, .f32⟩
  | 70 => ⟨S_, .f32⟩
  | 71 => ⟨S6783, .f32⟩
  | 72 => ⟨S6783x6783, .i32⟩
  | 73 => ⟨S6783x6783, .i32⟩
  | 74 => ⟨S_, .i32⟩
  | 75 => ⟨S6783x6783, .i32⟩
  | 76 => ⟨S6783x6783, .i32⟩
  | 77 => ⟨S6783x6783, .i1⟩
  | 78 => ⟨S6783x1, .f32⟩
  | 79 => ⟨S_, .f32⟩
  | 80 => ⟨S6783x6783, .f32⟩
  | 81 => ⟨S6783x6783, .f32⟩
  | 82 => ⟨S6783x6783, .f32⟩
  | 83 => ⟨S6783x6783, .f32⟩
  | 84 => ⟨S_, .f32⟩
  | 85 => ⟨S_, .f32⟩
  | 86 => ⟨S_, .f32⟩
  | 87 => ⟨S_, .f32⟩
  | 88 => ⟨S3763, .f32⟩
  | 89 => ⟨S3763, .f32⟩
  | 90 => ⟨S3763, .f32⟩
  | 91 => ⟨S_, .f32⟩
  | 92 => ⟨S6783, .f32⟩
  | 93 => ⟨S6783x6783, .i32⟩
  | 94 => ⟨S6783x6783, .i32⟩
  | 95 => ⟨S_, .i32⟩
  | 96 => ⟨S6783x6783, .i32⟩
  | 97 => ⟨S6783x6783, .i32⟩
  | 98 => ⟨S6783x6783, .i1⟩
  | 99 => ⟨S6783x1, .f32⟩
  | 100 => ⟨S_, .f32⟩
  | 101 => ⟨S6783x6783, .f32⟩
  | 102 => ⟨S6783x6783, .f32⟩
  | 103 => ⟨S6783x6783, .f32⟩
  | 104 => ⟨S6783x6783, .f32⟩
  | 105 => ⟨S_, .f32⟩
  | 106 => ⟨S_, .f32⟩
  | 107 => ⟨S_, .f32⟩
  | 108 => ⟨S_, .f32⟩
  | 109 => ⟨S_, .f32⟩
  | 110 => ⟨S3008, .f32⟩
  | 111 => ⟨S3008, .f32⟩
  | 112 => ⟨S3008, .f32⟩
  | 113 => ⟨S_, .f32⟩
  | 114 => ⟨S6783, .f32⟩
  | 115 => ⟨S6783x6783, .i32⟩
  | 116 => ⟨S6783x6783, .i32⟩
  | 117 => ⟨S_, .i32⟩
  | 118 => ⟨S6783x6783, .i32⟩
  | 119 => ⟨S6783x6783, .i32⟩
  | 120 => ⟨S6783x6783, .i1⟩
  | 121 => ⟨S6783x1, .f32⟩
  | 122 => ⟨S_, .f32⟩
  | 123 => ⟨S6783x6783, .f32⟩
  | 124 => ⟨S6783x6783, .f32⟩
  | 125 => ⟨S6783x6783, .f32⟩
  | 126 => ⟨S6783x6783, .f32⟩
  | 127 => ⟨S_, .f32⟩
  | _ => ⟨S1x1x6783, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S2253, .f32⟩
  | 5 => ⟨S2253, .f32⟩
  | 6 => ⟨S2253, .f32⟩
  | 7 => ⟨S_, .f32⟩
  | 8 => ⟨S6783, .f32⟩
  | 9 => ⟨S6783x6783, .i32⟩
  | 10 => ⟨S6783x6783, .i32⟩
  | 11 => ⟨S_, .i32⟩
  | 12 => ⟨S6783x6783, .i32⟩
  | 13 => ⟨S6783x6783, .i32⟩
  | 14 => ⟨S6783x6783, .i1⟩
  | 15 => ⟨S6783x1, .f32⟩
  | 16 => ⟨S_, .f32⟩
  | 17 => ⟨S6783x6783, .f32⟩
  | 18 => ⟨S6783x6783, .f32⟩
  | 19 => ⟨S6783x6783, .f32⟩
  | 20 => ⟨S6783x6783, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S1498, .f32⟩
  | 28 => ⟨S1498, .f32⟩
  | 29 => ⟨S1498, .f32⟩
  | 30 => ⟨S_, .f32⟩
  | 31 => ⟨S6783, .f32⟩
  | 32 => ⟨S6783x6783, .i32⟩
  | 33 => ⟨S6783x6783, .i32⟩
  | 34 => ⟨S_, .i32⟩
  | 35 => ⟨S6783x6783, .i32⟩
  | 36 => ⟨S6783x6783, .i32⟩
  | 37 => ⟨S6783x6783, .i1⟩
  | 38 => ⟨S6783x1, .f32⟩
  | 39 => ⟨S_, .f32⟩
  | 40 => ⟨S6783x6783, .f32⟩
  | 41 => ⟨S6783x6783, .f32⟩
  | 42 => ⟨S6783x6783, .f32⟩
  | 43 => ⟨S6783x6783, .f32⟩
  | 44 => ⟨S_, .f32⟩
  | 45 => ⟨S_, .f32⟩
  | 46 => ⟨S_, .f32⟩
  | 47 => ⟨S_, .f32⟩
  | 48 => ⟨S_, .f32⟩
  | 49 => ⟨S743, .f32⟩
  | 50 => ⟨S743, .f32⟩
  | 51 => ⟨S743, .f32⟩
  | 52 => ⟨S_, .f32⟩
  | 53 => ⟨S6783, .f32⟩
  | 54 => ⟨S6783x6783, .i32⟩
  | 55 => ⟨S6783x6783, .i32⟩
  | 56 => ⟨S_, .i32⟩
  | 57 => ⟨S6783x6783, .i32⟩
  | 58 => ⟨S6783x6783, .i32⟩
  | 59 => ⟨S6783x6783, .i1⟩
  | 60 => ⟨S6783x1, .f32⟩
  | 61 => ⟨S_, .f32⟩
  | 62 => ⟨S6783x6783, .f32⟩
  | 63 => ⟨S6783x6783, .f32⟩
  | 64 => ⟨S6783x6783, .f32⟩
  | 65 => ⟨S6783x6783, .f32⟩
  | 66 => ⟨S1x1x6783, .f32⟩
  | 67 => ⟨S1x1x755, .f32⟩
  | 68 => ⟨S755, .f32⟩
  | 69 => ⟨S755, .f32⟩
  | 70 => ⟨S_, .f32⟩
  | 71 => ⟨S_, .f32⟩
  | _ => ⟨S1x1x6783, .f32⟩

abbrev hbmTy (i : Nat) : BufTy := match i / 128 with
  | 0 => hbmTy0_0 i
  | 1 => hbmTy0_1 i
  | _ => ⟨S1x1x6783, .f32⟩

abbrev bufTy : (tb : Table) → Fin (tcTables nBuf tb) → BufTy
  | .hbm, ⟨i, _⟩ => hbmTy i
  | _, _ => ⟨S1x1x6783, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_c : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_0 : Ref sig .tc := ⟨.hbm, 19, rfl⟩
abbrev main_call0_call0_v0 : Ref sig .tc := ⟨.hbm, 20, rfl⟩
abbrev main_call0_call0_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_c : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_0 : Ref sig .tc := ⟨.hbm, 38, rfl⟩
abbrev main_call1_call0_v0 : Ref sig .tc := ⟨.hbm, 39, rfl⟩
abbrev main_call1_call0_v1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call2_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_c : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_cst_0 : Ref sig .tc := ⟨.hbm, 58, rfl⟩
abbrev main_call2_call0_v0 : Ref sig .tc := ⟨.hbm, 59, rfl⟩
abbrev main_call2_call0_v1 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_4 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_call3_cst : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_c : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_cst_0 : Ref sig .tc := ⟨.hbm, 79, rfl⟩
abbrev main_call3_call0_v0 : Ref sig .tc := ⟨.hbm, 80, rfl⟩
abbrev main_call3_call0_v1 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_cst_5 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_call4_cst : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_c : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_cst_0 : Ref sig .tc := ⟨.hbm, 100, rfl⟩
abbrev main_call4_call0_v0 : Ref sig .tc := ⟨.hbm, 101, rfl⟩
abbrev main_call4_call0_v1 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_cst_6 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_call5_cst : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_c : Ref sig .tc := ⟨.hbm, 117, rfl⟩
abbrev main_call5_v3 : Ref sig .tc := ⟨.hbm, 118, rfl⟩
abbrev main_call5_v4 : Ref sig .tc := ⟨.hbm, 119, rfl⟩
abbrev main_call5_v5 : Ref sig .tc := ⟨.hbm, 120, rfl⟩
abbrev main_call5_v6 : Ref sig .tc := ⟨.hbm, 121, rfl⟩
abbrev main_call5_cst_0 : Ref sig .tc := ⟨.hbm, 122, rfl⟩
abbrev main_call5_call0_v0 : Ref sig .tc := ⟨.hbm, 123, rfl⟩
abbrev main_call5_call0_v1 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_cst_7 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_call6_cst : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_c : Ref sig .tc := ⟨.hbm, 139, rfl⟩
abbrev main_call6_v3 : Ref sig .tc := ⟨.hbm, 140, rfl⟩
abbrev main_call6_v4 : Ref sig .tc := ⟨.hbm, 141, rfl⟩
abbrev main_call6_v5 : Ref sig .tc := ⟨.hbm, 142, rfl⟩
abbrev main_call6_v6 : Ref sig .tc := ⟨.hbm, 143, rfl⟩
abbrev main_call6_cst_0 : Ref sig .tc := ⟨.hbm, 144, rfl⟩
abbrev main_call6_call0_v0 : Ref sig .tc := ⟨.hbm, 145, rfl⟩
abbrev main_call6_call0_v1 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_cst_8 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_call7_cst : Ref sig .tc := ⟨.hbm, 158, rfl⟩
abbrev main_call7_v0 : Ref sig .tc := ⟨.hbm, 159, rfl⟩
abbrev main_call7_v1 : Ref sig .tc := ⟨.hbm, 160, rfl⟩
abbrev main_call7_v2 : Ref sig .tc := ⟨.hbm, 161, rfl⟩
abbrev main_call7_c : Ref sig .tc := ⟨.hbm, 162, rfl⟩
abbrev main_call7_v3 : Ref sig .tc := ⟨.hbm, 163, rfl⟩
abbrev main_call7_v4 : Ref sig .tc := ⟨.hbm, 164, rfl⟩
abbrev main_call7_v5 : Ref sig .tc := ⟨.hbm, 165, rfl⟩
abbrev main_call7_v6 : Ref sig .tc := ⟨.hbm, 166, rfl⟩
abbrev main_call7_cst_0 : Ref sig .tc := ⟨.hbm, 167, rfl⟩
abbrev main_call7_call0_v0 : Ref sig .tc := ⟨.hbm, 168, rfl⟩
abbrev main_call7_call0_v1 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_cst_9 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_call8_cst : Ref sig .tc := ⟨.hbm, 180, rfl⟩
abbrev main_call8_v0 : Ref sig .tc := ⟨.hbm, 181, rfl⟩
abbrev main_call8_v1 : Ref sig .tc := ⟨.hbm, 182, rfl⟩
abbrev main_call8_v2 : Ref sig .tc := ⟨.hbm, 183, rfl⟩
abbrev main_call8_c : Ref sig .tc := ⟨.hbm, 184, rfl⟩
abbrev main_call8_v3 : Ref sig .tc := ⟨.hbm, 185, rfl⟩
abbrev main_call8_v4 : Ref sig .tc := ⟨.hbm, 186, rfl⟩
abbrev main_call8_v5 : Ref sig .tc := ⟨.hbm, 187, rfl⟩
abbrev main_call8_v6 : Ref sig .tc := ⟨.hbm, 188, rfl⟩
abbrev main_call8_cst_0 : Ref sig .tc := ⟨.hbm, 189, rfl⟩
abbrev main_call8_call0_v0 : Ref sig .tc := ⟨.hbm, 190, rfl⟩
abbrev main_call8_call0_v1 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_cst_10 : Ref sig .tc := ⟨.hbm, 198, rfl⟩
abbrev main_v77 : Ref sig .tc := ⟨.hbm, 199, rfl⟩

abbrev nD : Nat := 1
abbrev τ : Topo := Topo.v7x

variable {F : FTy → Type} [FloatOps F]

class Facts₀ : Prop where
  bcast_S_S6783x6783 : S_.BroadcastsInDim S6783x6783 (![] : Fin 0 → Fin S6783x6783.rank)
  bcast_S_S6783 : S_.BroadcastsInDim S6783 (![] : Fin 0 → Fin S6783.rank)
  pads_S6783_S6783_000 : S6783.Pads (![0] : Fin 1 → Nat) ![0] ![0] S6783
  h_S_ : 0 < S_.numel
  bcast_S6783_S6783x1_0 : S6783.BroadcastsInDim S6783x1 (![0] : Fin 1 → Fin S6783x1.rank)
  bcast_S6783x1_S6783x6783_0_1 : S6783x1.BroadcastsInDim S6783x6783 (![0, 1] : Fin 2 → Fin S6783x6783.rank)
  bcast_S_S6028 : S_.BroadcastsInDim S6028 (![] : Fin 0 → Fin S6028.rank)
  pads_S6028_S6783_07550 : S6028.Pads (![0] : Fin 1 → Nat) ![755] ![0] S6783
  bcast_S_S5273 : S_.BroadcastsInDim S5273 (![] : Fin 0 → Fin S5273.rank)
  pads_S5273_S6783_015100 : S5273.Pads (![0] : Fin 1 → Nat) ![1510] ![0] S6783
  bcast_S_S4518 : S_.BroadcastsInDim S4518 (![] : Fin 0 → Fin S4518.rank)
  pads_S4518_S6783_022650 : S4518.Pads (![0] : Fin 1 → Nat) ![2265] ![0] S6783
  bcast_S_S3763 : S_.BroadcastsInDim S3763 (![] : Fin 0 → Fin S3763.rank)
  pads_S3763_S6783_030200 : S3763.Pads (![0] : Fin 1 → Nat) ![3020] ![0] S6783
  bcast_S_S3008 : S_.BroadcastsInDim S3008 (![] : Fin 0 → Fin S3008.rank)
  pads_S3008_S6783_037750 : S3008.Pads (![0] : Fin 1 → Nat) ![3775] ![0] S6783
  bcast_S_S2253 : S_.BroadcastsInDim S2253 (![] : Fin 0 → Fin S2253.rank)
  pads_S2253_S6783_045300 : S2253.Pads (![0] : Fin 1 → Nat) ![4530] ![0] S6783
  bcast_S_S1498 : S_.BroadcastsInDim S1498 (![] : Fin 0 → Fin S1498.rank)
  pads_S1498_S6783_052850 : S1498.Pads (![0] : Fin 1 → Nat) ![5285] ![0] S6783
  bcast_S_S743 : S_.BroadcastsInDim S743 (![] : Fin 0 → Fin S743.rank)
  pads_S743_S6783_060400 : S743.Pads (![0] : Fin 1 → Nat) ![6040] ![0] S6783
  slices_S1x1x6783_S1x1x755_0_0_6028 : S1x1x6783.Slices ![0, 0, 6028] S1x1x755
  shapeCasts_S1x1x755_S755 : S1x1x755.ShapeCasts S755
  reducesTo_S755_S_d0 : S755.ReducesTo [0] S_
  dot_S1x1x6783_S6783x6783_S1x1x6783_2_0_01_1_n_n_wf : DotDims.WF S1x1x6783 S6783x6783 S1x1x6783 [2] [0] [0, 1] [1] [] []

variable [Facts₀]

def dot_S1x1x6783_S6783x6783_S1x1x6783_2_0_01_1_n_n : DotDims S1x1x6783 S6783x6783 S1x1x6783 where
  lhsContracting := [2]
  rhsContracting := [0]
  lhsNonContracting := [0, 1]
  rhsNonContracting := [1]
  lhsBatch := []
  rhsBatch := []
  wf := dot_S1x1x6783_S6783x6783_S1x1x6783_2_0_01_1_n_n_wf

class Facts : Prop extends Facts₀ where

variable [Facts]
-- ==== Proof.Spec.lean ====
/-
  The two closed forms this certificate joins, stated over the extended reals with no program in sight.

  The signal `q` has 6783 entries; `a` is the decay parameter.  Band `i` (`i = 0 … 8`) sits at offset `755 * i`
  and carries the weight `(-a) ^ i`.  The quantity computed is the energy of the last 755 outputs of the banded
  matrix-vector product.

  * The kernel pads the signal with twelve zeros in front (6795 = 9 * 755 entries), cuts it into nine rows of 755,
    weights row `r` by `(-a) ^ (8 - r)`, adds the rows and sums the squares: `kernelLoss`.
  * The reference builds the 6783 × 6783 matrix whose entry `(l, m)` is the sum over the nine bands of
    `(-a) ^ i` when `l + 755 * i = m` and `0` otherwise, contracts the signal against it, keeps the outputs
    `6028 … 6782` and sums their squares: `refLoss`.
-/
import Idealize.ShloMosaic.PureOps.Ideal
import Idealize.ShloMosaic.Lib.ValueIdx

noncomputable section

namespace BandDecay

open Idealize.ShloMosaic Idealize.ShloMosaic.ValueIdx

/-- The signal's shape, `[1, 1, 6783]`. -/
abbrev SigShape : Shape := ⟨3, ![1, 1, 6783]⟩
/-- A scalar's shape. -/
abbrev ScalarShape : Shape := ⟨0, ![]⟩

/-- A scalar buffer's one entry. -/
def scalarOf (a : ScalarShape.Idx → EReal) : EReal := a ix0

/-- The signal with twelve zeros in front, read at position `p` (zero outside `12 … 6794`). -/
def padded (q : SigShape.Idx → EReal) (p : ℕ) : EReal :=
  if h : 12 ≤ p ∧ p < 6795 then q (ix3 0 0 ⟨p - 12, by omega⟩) else 0

/-- Column `t` of the nine weighted rows, added: row `r` is positions `755 * r … 755 * r + 754` of the padded signal,
    its weight `(-a) ^ (8 - r)`. -/
def kernelBand (q : SigShape.Idx → EReal) (a : EReal) (t : Fin 755) : EReal :=
  ∑ r : Fin 9, padded q (755 * r.val + t.val) * (-a) ^ (8 - r.val)

/-- The kernel's result: the sum over the 755 columns of the squared column sums. -/
def kernelLoss (q : SigShape.Idx → EReal) (a : EReal) : EReal :=
  ∑ t : Fin 755, kernelBand q a t * kernelBand q a t

/-- Entry `(l, m)` of the banded matrix: band `i` contributes `(-a) ^ i` on the diagonal `m = l + 755 * i`. -/
def bandMatrix (a : EReal) (l m : Fin 6783) : EReal :=
  ∑ i : Fin 9, if l.val + 755 * i.val = m.val then (-a) ^ i.val else 0

/-- Output `6028 + t` of the signal contracted against the banded matrix. -/
def refBand (q : SigShape.Idx → EReal) (a : EReal) (t : Fin 755) : EReal :=
  ∑ l : Fin 6783, q (ix3 0 0 l) * bandMatrix a l ⟨6028 + t.val, by omega⟩

/-- The reference's result: the energy of the last 755 outputs. -/
def refLoss (q : SigShape.Idx → EReal) (a : EReal) : EReal :=
  ∑ t : Fin 755, refBand q a t * refBand q a t

end BandDecay

end
-- ==== Proof.BandAlgebra.lean ====
/-
  The algebra that joins the two closed forms.  For a finite signal `q = ↑x` and a finite parameter `a = ↑y` every
  quantity below is a real number, and over the reals

    ∑ l, x l * (∑ i, [l + 755 i = m] (-y)^i)  =  ∑ i, (-y)^i * x (m - 755 i)   (the terms with 755 i ≤ m),

  because for each band `i` exactly one row `l = m - 755 i` meets the diagonal (none when `755 i > m`).  With
  `m = 6028 + t` the surviving entry is position `755 (8 - i) + t - 12` of the signal, which is position
  `755 r + t` of the signal padded by twelve leading zeros, `r = 8 - i`; the band that falls off the front
  (`i = 8`, `t < 12`) is a padding zero.  Reversing the order of the nine rows turns one sum into the other.
  Finiteness is what lets a factor be moved across a sum; it is used nowhere else.
-/
import proofs.«110823_j42975442764252_2_alg».proof.Proof.Spec

noncomputable section

namespace BandDecay

open Idealize.ShloMosaic Idealize.ShloMosaic.ValueIdx

/-- A finite sum of reals, read in the extended reals, is the sum of the readings. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The signal as a function on all naturals, zero past its end. -/
def ext (x : Fin 6783 → ℝ) (p : ℕ) : ℝ := if h : p < 6783 then x ⟨p, h⟩ else 0

/-- Over the reals: column `t` of the nine weighted rows of the padded signal is output `6028 + t` of the signal
    contracted against the banded matrix. -/
theorem real_band (x : Fin 6783 → ℝ) (b : ℝ) (t : Fin 755) :
    (∑ r : Fin 9, (if 12 ≤ 755 * r.val + t.val then ext x (755 * r.val + t.val - 12) else 0) * b ^ (8 - r.val))
      = ∑ l : Fin 6783, x l * ∑ i : Fin 9, (if l.val + 755 * i.val = 6028 + t.val then b ^ i.val else 0) := by
  have hR : ∀ l : Fin 6783, x l * ∑ i : Fin 9, (if l.val + 755 * i.val = 6028 + t.val then b ^ i.val else 0)
      = ∑ i : Fin 9, (if l.val + 755 * i.val = 6028 + t.val then x l * b ^ i.val else 0) := by
    intro l
    rw [Finset.mul_sum]
    refine Finset.sum_congr rfl fun i _ => ?_
    split_ifs <;> simp
  rw [Finset.sum_congr rfl (fun l _ => hR l), Finset.sum_comm, ← Equiv.sum_comp Fin.revPerm]
  refine Finset.sum_congr rfl fun i _ => ?_
  have hi8 : i.val ≤ 8 := by have := i.isLt; omega
  have hrev : (Fin.revPerm i).val = 8 - i.val := by
    rw [Fin.revPerm_apply, Fin.val_rev]; omega
  have ht := t.isLt
  rw [hrev]
  by_cases h : 755 * i.val ≤ 6028 + t.val
  · -- the diagonal of band `i` meets column `6028 + t` in row `6028 + t - 755 i`
    have hl : 6028 + t.val - 755 * i.val < 6783 := by omega
    rw [Finset.sum_eq_single (⟨6028 + t.val - 755 * i.val, hl⟩ : Fin 6783)]
    · have h12 : 12 ≤ 755 * (8 - i.val) + t.val := by omega
      have hpos : 755 * (8 - i.val) + t.val - 12 = 6028 + t.val - 755 * i.val := by omega
      have hpow : 8 - (8 - i.val) = i.val := by omega
      rw [if_pos h12, hpos, hpow, if_pos (by show 6028 + t.val - 755 * i.val + 755 * i.val = 6028 + t.val; omega)]
      unfold ext
      rw [dif_pos hl]
    · intro l _ hne
      rw [if_neg]
      intro hl'
      exact hne (Fin.ext (by show l.val = 6028 + t.val - 755 * i.val; omega))
    · intro hmem; exact absurd (Finset.mem_univ _) hmem
  · -- the band has fallen off the front: a padding zero on one side, no diagonal entry on the other
    have h12 : ¬ 12 ≤ 755 * (8 - i.val) + t.val := by omega
    rw [if_neg h12, zero_mul]
    symm
    refine Finset.sum_eq_zero fun l _ => ?_
    rw [if_neg]
    omega

variable (q : SigShape.Idx → EReal) (a : EReal) (x : Fin 6783 → ℝ) (y : ℝ)

/-- A finite signal padded in front, read at a position below 6795, is a real. -/
theorem padded_coe (hq : ∀ l, q (ix3 0 0 l) = (x l : EReal)) (p : ℕ) (hp : p < 6795) :
    padded q p = ((if 12 ≤ p then ext x (p - 12) else 0 : ℝ) : EReal) := by
  unfold padded
  by_cases h12 : 12 ≤ p
  · have hlt : p - 12 < 6783 := by omega
    rw [dif_pos ⟨h12, hp⟩, if_pos h12, hq]
    unfold ext
    rw [dif_pos hlt]
  · rw [dif_neg (fun h => h12 h.1), if_neg h12, EReal.coe_zero]

/-- A power of the negated finite parameter is a real. -/
theorem negpow_coe (ha : a = (y : EReal)) (k : ℕ) : (-a) ^ k = (((-y) ^ k : ℝ) : EReal) := by
  rw [ha, ← EReal.coe_neg, ← EReal.coe_pow]

/-- For finite inputs the two band sums agree, column by column. -/
theorem band_eq (hq : ∀ l, q (ix3 0 0 l) = (x l : EReal)) (ha : a = (y : EReal)) (t : Fin 755) :
    kernelBand q a t = refBand q a t := by
  have ht := t.isLt
  have hK : kernelBand q a t
      = ((∑ r : Fin 9, (if 12 ≤ 755 * r.val + t.val then ext x (755 * r.val + t.val - 12) else 0) * (-y) ^ (8 - r.val) : ℝ) : EReal) := by
    unfold kernelBand
    rw [coe_sum]
    refine Finset.sum_congr rfl fun r _ => ?_
    have hr := r.isLt
    rw [padded_coe q x hq _ (by omega), negpow_coe a y ha, EReal.coe_mul]
  have hM : ∀ l : Fin 6783, bandMatrix a l ⟨6028 + t.val, by omega⟩
      = ((∑ i : Fin 9, (if l.val + 755 * i.val = 6028 + t.val then (-y) ^ i.val else 0) : ℝ) : EReal) := by
    intro l
    unfold bandMatrix
    rw [coe_sum]
    refine Finset.sum_congr rfl fun i _ => ?_
    show (if l.val + 755 * i.val = 6028 + t.val then (-a) ^ i.val else 0) = _
    split_ifs
    · exact negpow_coe a y ha _
    · exact EReal.coe_zero.symm
  have hRf : refBand q a t
      = ((∑ l : Fin 6783, x l * ∑ i : Fin 9, (if l.val + 755 * i.val = 6028 + t.val then (-y) ^ i.val else 0) : ℝ) : EReal) := by
    unfold refBand
    rw [coe_sum]
    refine Finset.sum_congr rfl fun l _ => ?_
    rw [hq, hM, EReal.coe_mul]
  rw [hK, hRf, real_band]

/-- For finite inputs the kernel's closed form is the reference's. -/
theorem loss_eq (hq : ∀ l, q (ix3 0 0 l) = (x l : EReal)) (ha : a = (y : EReal)) :
    kernelLoss q a = refLoss q a := by
  unfold kernelLoss refLoss
  refine Finset.sum_congr rfl fun t _ => ?_
  rw [band_eq q a x y hq ha t]

end BandDecay

end
-- ==== Proof.FiniteInputs.lean ====
/-
  What the precondition says.  The printed predicate is the conjunction of two "all entries satisfy |x| < +∞" tests,
  one over the signal and one over the scalar parameter.  When it evaluates to 1, every entry compared is an
  extended real whose absolute value `max x (-x)` lies strictly below `+∞`; such an extended real is neither
  `+∞` nor `-∞`, hence a real number.
-/
import proofs.«110823_j42975442764252_2_alg».proof.Pre_finite_inputs
import proofs.«110823_j42975442764252_2_alg».proof.Proof.Spec
import Idealize.ShloMosaic.Lib.ReduceAll

noncomputable section

namespace BandDecay

open Idealize.ShloMosaic Idealize.ShloMosaic.ValueIdx

/-- A scalar has exactly one index. -/
instance subsingleton_scalarIdx : Subsingleton (⟨0, ![]⟩ : Shape).Idx := ⟨fun _ _ => funext fun d => d.elim0⟩

/-- An extended real whose absolute value is strictly below `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the signal is a real number, and so is the parameter. -/
theorem finite_of_pre [Cert.Pre_finite_inputs.Facts]
    (q : FVec Ideal Cert.Pre_finite_inputs.S1x1x6783 .f32) (a : FVec Ideal Cert.Pre_finite_inputs.S_ .f32)
    (h : Cert.Pre_finite_inputs.fn (F := Ideal) q a = fun _ => 1#1) :
    (∀ i : Cert.Pre_finite_inputs.S1x1x6783.Idx, ∃ r : ℝ, q i = (r : EReal)) ∧ ∃ y : ℝ, a ix0 = (y : EReal) := by
  have h0 := congrFun h ix0
  dsimp only [Cert.Pre_finite_inputs.fn] at h0
  obtain ⟨h1, h2⟩ := IntOp.andi_eq_one.1 h0
  refine ⟨fun i => ?_, ?_⟩
  · exact real_of_abs_lt_top (q i) (Host.reduce_andi_all _ _ _ _ ix0 h1 i)
  · exact real_of_abs_lt_top (a ix0) (Host.reduce_andi_all _ _ _ _ ix0 h2 ix0)

end BandDecay

end
-- ==== Proof.KernelFrame.lean ====
/-
  The frame of the kernel program as printed (stated at any float instance, used at the word-level one), by hand:
  @main is three stretches of host operations, one region on a grid of one point, and one host operation after it.  The region's three windows are whole arrays (the nine rows
  of the padded signal, the column of nine weights, the one-entry result), so each block is its whole array.
  The body reads the two inputs whole, reads the result buffer (the value is not used) and stores the payload of
  the two inputs over it.  From the body's triple the library's launch theorem gives the run of @main to a state in
  which the result array holds what the one point wrote back and every buffer that is no window's array holds what
  the host operations left there; the two argument arrays are written by no operation, so they end as launched.
-/
import proofs.«110823_j42975442764252_2_alg».proof.Proof.Gen.Kernel.Launch
import proofs.«110823_j42975442764252_2_alg».proof.Proof.Gen.Kernel.Skeleton
import proofs.«110823_j42975442764252_2_alg».proof.Proof.Gen.Kernel.Points
import Idealize.ShloMosaic.Lib.StableHlo
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The contents at the region's entry -/

/-- Core c's buffer contents when the region is entered: the launch memory after the three stretches of host
    operations that precede it, in order. Kept as a fold over the operation list. -/
abbrev V0 (m : (ℓ : Loc nD τ sig) → Buf (Elt F) ℓ) (c : Dev nD) : Valuation τ sig (Elt F) :=
  StableHlo.after (List.flatten [hostOps0, hostOps0_1, hostOps0_2]) (fun b => m (c, b))

/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches before the region, the region, and the one operation after it: it reduces to the
    region continued by that operation, entered at the contents the three stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operation after the region touches only arrays of the region and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays are written by no host operation -/

/-- No host operation before the region writes the signal's array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Nor the decay parameter's. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- The operation after the region does not write the signal's array, and the region does not stage it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same of the decay parameter's array. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Neither argument array is a window's array, so the run's post gives each as the operation after the region
    leaves it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body -/

/-- The whole of each buffer, as the body's accesses address it. -/
abbrev r0_0 : Rect S9x755 := Rect.unit (s := S9x755) ![0, 0] S9x755.size inb_S9x755_S9x755_0_0
abbrev r0_1 : Rect S9x1 := Rect.unit (s := S9x1) ![0, 0] S9x1.size inb_S9x1_S9x1_0_0
abbrev r0_2 : Rect S1x1 := Rect.unit (s := S1x1) ![0, 0] S1x1.size inb_S1x1_S1x1_0_0

/-- What the body leaves in the result window's buffer, from the two input blocks: its one store, of the payload
    of what its two loads read of them. -/
def out2 (x0 : Vec F S9x755 .f32) (x1 : Vec F S9x1 .f32) : Vec F S1x1 .f32 :=
  View.canon [⟨r0_2, k0_pay1 (View.ld x0 r0_0) (View.ld x1 r0_1)⟩]

/-- The one store covers the buffer. -/
theorem cover0_2 (p0 : Vec F S1x1 .f32) (y : S1x1.Idx) :
    ∃ pc ∈ ([⟨r0_2, p0⟩] : List (View.Piece (Elt F) S1x1 .f32)), y ∈ pc.1.set :=
  View.cover_of_tiled [⟨r0_2, p0⟩] S1x1.size (by rfl) y

set_option maxHeartbeats 400000 in
/-- The body on whole staging memrefs, the inputs' at contents x0 and x1 and the result's at anything, runs to the
    continuation with the inputs' as they were and the result's at the payload of the inputs. -/
theorem sound_kernel (c : Dev nD) (E : Set ℕ) (i : grid0.Coords)
    (arg1 : Memref sig .tc .vmem S9x755 .f32) (harg1 : arg1.IsWhole) (arg2 : Memref sig .tc .vmem S9x1 .f32) (harg2 : arg2.IsWhole)
    (arg3 : Memref sig .tc .vmem S1x1 .f32) (harg3 : arg3.IsWhole)
    (x0 : Vec F S9x755 .f32) (x1 : Vec F S9x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__band_kernel i arg1 harg1 arg2 harg2 arg3 harg3) K := by
  simp only [cc0__band_kernel_eq_skeleton]; unfold cc0__band_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the one pipeline on core c: the arrays as the region finds them; after the body each input's
    buffer at its block and the result's at the payload of the two input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]

/-- Each input's staging buffer holds its block at the point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at the point: the inputs' memrefs hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state
    each array of the region holds what the library computes from the proof data and every other unscoped buffer
    what the operation after the region leaves there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs and its two argument arrays end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.KernelIdealEntry.lean ====
/-
  The contents of the first core's buffers at the moment the kernel region is entered: the launch memory after the
  host operations that precede the region, in order — the reshape of the signal, the padding with twelve leading
  zeros (an outlined function), the cut into nine rows, the nine powers of `-a`, their concatenation into a column.
  Kept as a fold over the operation list; the lemmas about it live beside the proofs that need them.
-/
import proofs.«110823_j42975442764252_2_alg».proof.Proof.Gen.KernelIdeal.Launch
import Idealize.ShloMosaic.Lib.StableHlo

noncomputable section

namespace Cert.KernelIdeal.Hand

open Idealize.ShloMosaic Idealize.ShloMosaic.TcCoe Idealize.SL.Sem
open Cert.KernelIdeal Cert.KernelIdeal.Gen

variable {F : FTy → Type} [FloatOps F]

/-- Core `c`'s TensorCore buffer contents when the region is entered, as a valuation. -/
abbrev V0 (m : (ℓ : Loc nD τ sig) → Buf (Elt F) ℓ) (c : Dev nD) : Valuation τ sig (Elt F) :=
  StableHlo.after (List.flatten [hostOps0, hostOps0_1, hostOps0_2]) (fun b => m (c, b))

/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

end Cert.KernelIdeal.Hand

end
-- ==== Proof.KernelIdealFrame.lean ====
/-
  The frame of the idealized kernel program, by hand: @main is three stretches of host operations, one region on a
  grid of one point, and one host operation after it.  The region's three windows are whole arrays (the nine rows
  of the padded signal, the column of nine weights, the one-entry result), so each block is its whole array.
  The body reads the two inputs whole, reads the result buffer (the value is not used) and stores the payload of
  the two inputs over it.  From the body's triple the library's launch theorem gives the run of @main to a state in
  which the result array holds what the one point wrote back and every buffer that is no window's array holds what
  the host operations left there; the two argument arrays are written by no operation, so they end as launched.
-/
import proofs.«110823_j42975442764252_2_alg».proof.Proof.Gen.KernelIdeal.Launch
import proofs.«110823_j42975442764252_2_alg».proof.Proof.Gen.KernelIdeal.Skeleton
import proofs.«110823_j42975442764252_2_alg».proof.Proof.Gen.KernelIdeal.Points
import proofs.«110823_j42975442764252_2_alg».proof.Proof.KernelIdealEntry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches before the region, the region, and the one operation after it: it reduces to the
    region continued by that operation, entered at the contents the three stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operation after the region touches only arrays of the region and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The argument arrays are written by no host operation -/

/-- No host operation before the region writes the signal's array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- Nor the decay parameter's. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- The operation after the region does not write the signal's array, and the region does not stage it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same of the decay parameter's array. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Neither argument array is a window's array, so the run's post gives each as the operation after the region
    leaves it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body -/

/-- The whole of each buffer, as the body's accesses address it. -/
abbrev r0_0 : Rect S9x755 := Rect.unit (s := S9x755) ![0, 0] S9x755.size inb_S9x755_S9x755_0_0
abbrev r0_1 : Rect S9x1 := Rect.unit (s := S9x1) ![0, 0] S9x1.size inb_S9x1_S9x1_0_0
abbrev r0_2 : Rect S1x1 := Rect.unit (s := S1x1) ![0, 0] S1x1.size inb_S1x1_S1x1_0_0

/-- What the body leaves in the result window's buffer, from the two input blocks: its one store, of the payload
    of what its two loads read of them. -/
def out2 (x0 : Vec F S9x755 .f32) (x1 : Vec F S9x1 .f32) : Vec F S1x1 .f32 :=
  View.canon [⟨r0_2, k0_pay1 (View.ld x0 r0_0) (View.ld x1 r0_1)⟩]

/-- The one store covers the buffer. -/
theorem cover0_2 (p0 : Vec F S1x1 .f32) (y : S1x1.Idx) :
    ∃ pc ∈ ([⟨r0_2, p0⟩] : List (View.Piece (Elt F) S1x1 .f32)), y ∈ pc.1.set :=
  View.cover_of_tiled [⟨r0_2, p0⟩] S1x1.size (by rfl) y

set_option maxHeartbeats 400000 in
/-- The body on whole staging memrefs, the inputs' at contents x0 and x1 and the result's at anything, runs to the
    continuation with the inputs' as they were and the result's at the payload of the inputs. -/
theorem sound_kernel (c : Dev nD) (E : Set ℕ) (i : grid0.Coords)
    (arg1 : Memref sig .tc .vmem S9x755 .f32) (harg1 : arg1.IsWhole) (arg2 : Memref sig .tc .vmem S9x1 .f32) (harg2 : arg2.IsWhole)
    (arg3 : Memref sig .tc .vmem S1x1 .f32) (harg3 : arg3.IsWhole)
    (x0 : Vec F S9x755 .f32) (x1 : Vec F S9x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__band_kernel i arg1 harg1 arg2 harg2 arg3 harg3) K := by
  simp only [cc0__band_kernel_eq_skeleton]; unfold cc0__band_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the one pipeline on core c: the arrays as the region finds them; after the body each input's
    buffer at its block and the result's at the payload of the two input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]

/-- Each input's staging buffer holds its block at the point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at the point: the inputs' memrefs hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state
    each array of the region holds what the library computes from the proof data and every other unscoped buffer
    what the operation after the region leaves there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs and its two argument arrays end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.KernelIdealPayload.lean ====
/-
  The value the kernel body stores, over the extended reals.

  The body multiplies the nine rows of the slab by the column of weights spread along the lanes, adds the nine rows
  (a sum over the first axis, started from zero), squares the resulting row of 755 column sums entry by entry, and
  adds the 755 squares (a sum over the second axis, started from zero).  Read at its one index, the stored value is
  therefore the sum over the columns `t` of the square of `∑ r, x0 (r, t) * x1 (r, 0)`.
-/
import proofs.«110823_j42975442764252_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.SL.Sem Cert.KernelIdeal Cert.KernelIdeal.Gen
open scoped BigOperators

open Idealize.ShloMosaic.ValueIdx

/-- A lane sum over the first axis of a nine-row array, from the zero word, read at a column: the sum of the
    column's nine entries. -/
theorem sumRows (src : FVec Ideal S9x755 .f32) (h : S9x755.Reduces [0] S755) (hφ : FKind.Formats .f32)
    (hacc : (0x00000000#32 : BitVec 32) = 0x00000000#32) (t : Fin 755) :
    multiReduction .add [0] S755 src 0x00000000#32 h hφ hacc (ix1 t) = ∑ r : Fin 9, src (ix2 r t) := by
  refine (Ideal.multiReduction_add_single src 0x00000000#32 h hφ hacc (ix1 t)).trans ?_
  refine Finset.sum_congr rfl fun r _ => congrArg src ?_
  funext a
  match a with
  | ⟨0, _⟩ => rfl
  | ⟨1, _⟩ => rfl

/-- A lane sum over the second axis of a one-row array, from the zero word: the sum of the row's 755 entries. -/
theorem sumCols (src : FVec Ideal S1x755 .f32) (h : S1x755.Reduces [1] S1) (hφ : FKind.Formats .f32)
    (hacc : (0x00000000#32 : BitVec 32) = 0x00000000#32) (u : Fin 1) :
    multiReduction .add [1] S1 src 0x00000000#32 h hφ hacc (ix1 u) = ∑ t : Fin 755, src (ix2 0 t) := by
  refine (Ideal.multiReduction_add_single src 0x00000000#32 h hφ hacc (ix1 u)).trans ?_
  refine Finset.sum_congr rfl fun r _ => congrArg src ?_
  funext a
  match a with
  | ⟨0, _⟩ => exact Fin.ext (by have := u.isLt; show u.val = 0; omega)
  | ⟨1, _⟩ => rfl

/-- The column of weights spread over the 755 lanes reads, at row `r`, the weight of row `r`. -/
theorem spread_apply (x1 : FVec Ideal S9x1 .f32) (h : S9x1.Broadcasts S9x755) (r : Fin 9) (t : Fin 755) :
    broadcastTo S9x755 x1 h (ix2 r t) = x1 (ix2 r 0) := by
  refine broadcastTo_apply x1 h (ix2 r t) (ix2 r 0) fun a => ?_
  match a with
  | ⟨0, _⟩ => rfl
  | ⟨1, _⟩ => rfl

/-- The kernel's stored value: the weighted rows added column by column, and the squares of the 755 column sums added. -/
theorem pay_eq (x0 : Vec Ideal S9x755 .f32) (x1 : Vec Ideal S9x1 .f32) (j : S1x1.Idx) :
    k0_pay1 (F := Ideal) x0 x1 j = ∑ t : Fin 755, (∑ r : Fin 9, x0 (ValueIdx.ix2 r t) * x1 (ValueIdx.ix2 r 0)) * (∑ r : Fin 9, x0 (ValueIdx.ix2 r t) * x1 (ValueIdx.ix2 r 0)) := by
  unfold k0_pay1
  dsimp only
  refine (shapeCast_apply _ _ j (ix1 0) ?_).trans ?_
  · rw [Shape.rowMajor_val_one, Shape.rowMajor_val_two]
    have h0 := (j 0).isLt
    have h1 := (j 1).isLt
    show 0 = (j 0).val * 1 + (j 1).val
    change (j 0).val < 1 at h0
    change (j 1).val < 1 at h1
    omega
  refine (sumCols _ _ _ _ 0).trans ?_
  refine Finset.sum_congr rfl fun t _ => ?_
  have hcol : ∀ (h1 : S755.ShapeCasts S1x755) (h2 : S9x755.Reduces [0] S755) (hφ : FKind.Formats .f32)
      (hacc : (0x00000000#32 : BitVec 32) = 0x00000000#32) (h3 : S9x1.Broadcasts S9x755)
      (h4 : S9x755.ShapeCasts S9x755) (h5 : S9x1.ShapeCasts S9x1),
      shapeCast S1x755 (multiReduction (F := Ideal) .add [0] S755
        (mulf (shapeCast S9x755 x0 h4) (broadcastTo S9x755 (shapeCast S9x1 x1 h5) h3)) 0x00000000#32 h2 hφ hacc) h1 (ix2 0 t)
        = ∑ r : Fin 9, x0 (ix2 r t) * x1 (ix2 r 0) := by
    intro h1 h2 hφ hacc h3 h4 h5
    refine (shapeCast_apply _ h1 (ix2 0 t) (ix1 t) ?_).trans ?_
    · rw [Shape.rowMajor_val_one, Shape.rowMajor_val_two]
      show t.val = 0 * 755 + t.val
      omega
    refine (sumRows _ h2 hφ hacc t).trans ?_
    refine Finset.sum_congr rfl fun r _ => ?_
    rw [mulf_apply, shapeCast_self, shapeCast_self, spread_apply]
  rw [mulf_apply]
  exact congrArg₂ (· * ·) (hcol _ _ _ _ _ _ _) (hcol _ _ _ _ _ _ _)

end Cert.KernelIdeal.Hand

end
-- ==== Proof.KernelIdealSlab.lean ====
/-
  The slab of nine rows the kernel reads, as the region finds it.

  Before the region the host reshapes the signal to one row of 6783 entries, pads it with twelve copies of the
  converted integer zero in front (one row of 6795 = 9 * 755 entries), and cuts the row into nine rows of 755.  A
  reshape keeps row-major positions, so entry `(r, t)` of the slab is entry `755 r + t` of the padded row: the
  signal at `755 r + t - 12` from position twelve on, and zero before.
-/
import proofs.«110823_j42975442764252_2_alg».proof.Proof.KernelIdealEntry
import proofs.«110823_j42975442764252_2_alg».proof.Proof.Spec
import Idealize.ShloMosaic.Lib.ValueIdx
import Idealize.ShloMosaic.Lib.Pipeline.Value
import Idealize.ShloMosaic.Lib.StableHlo.Run
import Idealize.ShloMosaic.Lib.KernelVsHost

noncomputable section

namespace Cert.KernelIdeal.Hand

open Idealize.ShloMosaic Idealize.ShloMosaic.TcCoe Idealize.SL.Sem Cert.KernelIdeal Cert.KernelIdeal.Gen
open scoped BigOperators

open Idealize.ShloMosaic.ValueIdx Idealize.ShloMosaic.StableHlo

/-- The padding value: the integer zero converted to a float is the real zero. -/
theorem padValue_eq (i : S_.Idx) : sitofp (F := Ideal) .f32 (constantI S_ 32 0#32) i = 0 := by
  show (((0#32 : BitVec 32).toInt : ℝ) : EReal) = 0
  simp

/-- The slab of nine rows, read at row `r` and column `t`: the signal with twelve zeros in front, at position
    `755 r + t`.  The cut into rows keeps row-major positions; the padding reads the signal twelve places earlier from
    position twelve on, and the padding value before. -/
theorem slab_read (q : S1x1x6783.Idx → EReal) (r : Fin 9) (t : Fin 755) :
    shapeCast S9x755 (pad S1x6795 ![0, 12] ![0, 0] ![0, 0] (shapeCast S1x6783 q shapeCasts_S1x1x6783_S1x6783)
        (sitofp (F := Ideal) .f32 (constantI S_ 32 0#32)) pads_S1x6783_S1x6795_000_1200 h_S_) shapeCasts_S1x6795_S9x755 (ix2 r t)
      = BandDecay.padded q (755 * r.val + t.val) := by
  have hr := r.isLt
  have ht := t.isLt
  have hp : 755 * r.val + t.val < 6795 := by omega
  refine (shapeCast_apply _ _ (ix2 r t) (ix2 (0 : Fin 1) (⟨755 * r.val + t.val, hp⟩ : Fin 6795)) ?_).trans ?_
  · rw [Shape.rowMajor_val_two, Shape.rowMajor_val_two]
    show 0 * 6795 + (755 * r.val + t.val) = r.val * 755 + t.val
    omega
  unfold BandDecay.padded
  by_cases h12 : 12 ≤ 755 * r.val + t.val
  · rw [dif_pos ⟨h12, hp⟩]
    refine (pad_apply_of_inside _ _ _ _ _ _ _ _ (ix2 (0 : Fin 1) (⟨755 * r.val + t.val - 12, by omega⟩ : Fin 6783)) ?_).trans ?_
    · intro a
      match a with
      | ⟨0, _⟩ => rfl
      | ⟨1, _⟩ =>
        show 755 * r.val + t.val = 12 + (755 * r.val + t.val - 12) * (0 + 1)
        omega
    refine shapeCast_apply _ _ _ _ ?_
    rw [Shape.rowMajor_val_three, Shape.rowMajor_val_two]
    show (0 * 1 + 0) * 6783 + (755 * r.val + t.val - 12) = 0 * 6783 + (755 * r.val + t.val - 12)
    omega
  · rw [dif_neg (fun h => h12 h.1)]
    refine (pad_apply_of_not_inside _ _ _ _ _ _ _ _ (1 : Fin 2) ?_).trans (padValue_eq _)
    intro h
    exact h12 h.1

/-- The slab buffer at region entry, as the host operations' composed term. -/
theorem slab_term (m : (ℓ : Loc nD τ sig) → Buf (Elt Ideal) ℓ) (c : Dev nD) :
    (V0 (F := Ideal) m c (Proc.devRef .tc main_v2) : S9x755.Idx → EReal)
      = shapeCast S9x755 (pad S1x6795 ![0, 12] ![0, 0] ![0, 0]
          (shapeCast S1x6783 (m ((c : Thread nD τ).loc main_arg0) : S1x1x6783.Idx → EReal) shapeCasts_S1x1x6783_S1x6783)
          (sitofp (F := Ideal) .f32 (constantI S_ 32 0#32)) pads_S1x6783_S1x6795_000_1200 h_S_) shapeCasts_S1x6795_S9x755 := by
  dsimp only [V0]
  simp only [hostOps0, hostOps0_1, hostOps0_2, List.flatten_cons, List.flatten_nil, List.append_nil, List.cons_append, List.nil_append]
  after_results
  rfl

theorem V0_slab (m : (ℓ : Loc nD τ sig) → Buf (Elt Ideal) ℓ) (c : Dev nD) (r : Fin 9) (t : Fin 755) :
    V0 (F := Ideal) m c (Proc.devRef .tc main_v2) (ValueIdx.ix2 r t) = BandDecay.padded (m ((c : Thread nD τ).loc main_arg0)) (755 * r.val + t.val) :=
  (congrFun (slab_term m c) (ix2 r t)).trans (slab_read _ r t)

end Cert.KernelIdeal.Hand

end
-- ==== Proof.KernelIdealRead.lean ====
/-
  Reading the host operations before the region at a buffer, and the small facts the weights need.

  The entry valuation is a fold over forty-four host operations.  At a given buffer the fold is rewritten, one
  operation at a time, to the pure term of the operations that feed the buffer (every other operation leaves the
  buffer alone).  The weights are products of copies of `-a` grouped as the program multiplies them; on the extended
  reals, a commutative monoid under multiplication, each product is a power of `-a`.
-/
import proofs.«110823_j42975442764252_2_alg».proof.Proof.KernelIdealEntry
import proofs.«110823_j42975442764252_2_alg».proof.Proof.Spec
import Idealize.ShloMosaic.Lib.ValueIdx
import Idealize.ShloMosaic.Lib.Pipeline.Value
import Idealize.ShloMosaic.Lib.StableHlo.Run
import Idealize.ShloMosaic.PureOps.IdealRules

noncomputable section

namespace Cert.KernelIdeal.Hand

open Idealize.ShloMosaic Idealize.ShloMosaic.TcCoe Idealize.SL.Sem Cert.KernelIdeal Cert.KernelIdeal.Gen
open scoped BigOperators

open Idealize.ShloMosaic.ValueIdx Idealize.ShloMosaic.StableHlo

/-- Opens the entry valuation at a buffer: the fold over the host operations, rewritten operation by operation to
    the composed pure term of the operations that feed the buffer. -/
macro "read_entry" : tactic =>
  `(tactic| (dsimp only [V0]
             simp only [hostOps0, hostOps0_1, hostOps0_2, List.flatten_cons, List.flatten_nil, List.append_nil,
               List.cons_append, List.nil_append]
             after_results))

/-- The host's negation of a scalar buffer, read: the negative of its entry. -/
theorem hostNeg_apply (a : FVec Ideal S_ .f32) (i : S_.Idx) : Host.negf a i = -(a i) := rfl

/-- A scalar spread to one entry reads the scalar. -/
theorem spreadOne_apply (x : FVec Ideal S_ .f32) (h : S_.BroadcastsInDim S1 ![]) (i : S1.Idx) :
    broadcastInDim S1 ![] h x i = x ix0 :=
  broadcastInDim_apply _ h x i ix0 (fun a => a.elim0)

/-- The word of the float one denotes the real one. -/
theorem one_word : Ideal.ofBits .f32 0x3F800000#32 = 1 := IdealRules.sign_bit.ideal_onePat .f32

/-! The products the host program forms from `x = -a`, as powers.  The extended reals are a commutative monoid
    under multiplication, so each is a regrouping of a product of copies of `x`. -/

theorem pc8 (x : EReal) : ((x * x) * (x * x)) * ((x * x) * (x * x)) = x ^ 8 := by
  simp only [pow_succ, pow_zero, one_mul, mul_assoc]
theorem pc7 (x : EReal) : (x * (x * x)) * ((x * x) * (x * x)) = x ^ 7 := by
  simp only [pow_succ, pow_zero, one_mul, mul_assoc]
theorem pc6 (x : EReal) : (x * x) * ((x * x) * (x * x)) = x ^ 6 := by
  simp only [pow_succ, pow_zero, one_mul, mul_assoc]
theorem pc5 (x : EReal) : x * ((x * x) * (x * x)) = x ^ 5 := by
  simp only [pow_succ, pow_zero, one_mul, mul_assoc]
theorem pc4 (x : EReal) : (x * x) * (x * x) = x ^ 4 := by
  simp only [pow_succ, pow_zero, one_mul, mul_assoc]
theorem pc3 (x : EReal) : (x * x) * x = x ^ 3 := by
  simp only [pow_succ, pow_zero, one_mul, mul_assoc]
theorem pc2 (x : EReal) : x * x = x ^ 2 := by
  simp only [pow_succ, pow_zero, one_mul]

end Cert.KernelIdeal.Hand

end
-- ==== Proof.KernelIdealWeightsA.lean ====
/-
  The first three of the nine one-entry buffers the host concatenates into the column of weights: the eighth,
  seventh and sixth powers of `-a`, each built by its own chain of multiplications.
-/
import proofs.«110823_j42975442764252_2_alg».proof.Proof.KernelIdealRead

noncomputable section

namespace Cert.KernelIdeal.Hand

open Idealize.ShloMosaic Idealize.ShloMosaic.TcCoe Idealize.SL.Sem Cert.KernelIdeal Cert.KernelIdeal.Gen
open scoped BigOperators

open Idealize.ShloMosaic.ValueIdx Idealize.ShloMosaic.StableHlo

/-- Entry 0 of the nine: the eighth power of `-a`. -/
theorem weight0 (m : (ℓ : Loc nD τ sig) → Buf (Elt Ideal) ℓ) (c : Dev nD) :
    V0 (F := Ideal) m c (Proc.devRef .tc main_v30) (ix1 0) = (-(BandDecay.scalarOf (m ((c : Thread nD τ).loc main_arg1)))) ^ 8 := by
  read_entry
  refine (spreadOne_apply _ _ _).trans ?_
  simp only [mulf_apply, hostNeg_apply]
  exact pc8 _

/-- Entry 1 of the nine: the seventh power of `-a`. -/
theorem weight1 (m : (ℓ : Loc nD τ sig) → Buf (Elt Ideal) ℓ) (c : Dev nD) :
    V0 (F := Ideal) m c (Proc.devRef .tc main_v31) (ix1 0) = (-(BandDecay.scalarOf (m ((c : Thread nD τ).loc main_arg1)))) ^ 7 := by
  read_entry
  refine (spreadOne_apply _ _ _).trans ?_
  simp only [mulf_apply, hostNeg_apply]
  exact pc7 _

/-- Entry 2 of the nine: the sixth power of `-a`. -/
theorem weight2 (m : (ℓ : Loc nD τ sig) → Buf (Elt Ideal) ℓ) (c : Dev nD) :
    V0 (F := Ideal) m c (Proc.devRef .tc main_v32) (ix1 0) = (-(BandDecay.scalarOf (m ((c : Thread nD τ).loc main_arg1)))) ^ 6 := by
  read_entry
  refine (spreadOne_apply _ _ _).trans ?_
  simp only [mulf_apply, hostNeg_apply]
  exact pc6 _

end Cert.KernelIdeal.Hand

end
-- ==== Proof.KernelIdealWeightsB.lean ====
/-
  The middle three of the nine one-entry buffers the host concatenates into the column of weights: the fifth,
  fourth and third powers of `-a`.
-/
import proofs.«110823_j42975442764252_2_alg».proof.Proof.KernelIdealRead

noncomputable section

namespace Cert.KernelIdeal.Hand

open Idealize.ShloMosaic Idealize.ShloMosaic.TcCoe Idealize.SL.Sem Cert.KernelIdeal Cert.KernelIdeal.Gen
open scoped BigOperators

open Idealize.ShloMosaic.ValueIdx Idealize.ShloMosaic.StableHlo

/-- Entry 3 of the nine: the fifth power of `-a`. -/
theorem weight3 (m : (ℓ : Loc nD τ sig) → Buf (Elt Ideal) ℓ) (c : Dev nD) :
    V0 (F := Ideal) m c (Proc.devRef .tc main_v33) (ix1 0) = (-(BandDecay.scalarOf (m ((c : Thread nD τ).loc main_arg1)))) ^ 5 := by
  read_entry
  refine (spreadOne_apply _ _ _).trans ?_
  simp only [mulf_apply, hostNeg_apply]
  exact pc5 _

/-- Entry 4 of the nine: the fourth power of `-a`. -/
theorem weight4 (m : (ℓ : Loc nD τ sig) → Buf (Elt Ideal) ℓ) (c : Dev nD) :
    V0 (F := Ideal) m c (Proc.devRef .tc main_v34) (ix1 0) = (-(BandDecay.scalarOf (m ((c : Thread nD τ).loc main_arg1)))) ^ 4 := by
  read_entry
  refine (spreadOne_apply _ _ _).trans ?_
  simp only [mulf_apply, hostNeg_apply]
  exact pc4 _

/-- Entry 5 of the nine: the third power of `-a`. -/
theorem weight5 (m : (ℓ : Loc nD τ sig) → Buf (Elt Ideal) ℓ) (c : Dev nD) :
    V0 (F := Ideal) m c (Proc.devRef .tc main_v35) (ix1 0) = (-(BandDecay.scalarOf (m ((c : Thread nD τ).loc main_arg1)))) ^ 3 := by
  read_entry
  refine (spreadOne_apply _ _ _).trans ?_
  simp only [mulf_apply, hostNeg_apply]
  exact pc3 _

end Cert.KernelIdeal.Hand

end
-- ==== Proof.KernelIdealWeightsC.lean ====
/-
  The last three of the nine one-entry buffers the host concatenates into the column of weights: the square of
  `-a`, `-a` itself, and the constant one.
-/
import proofs.«110823_j42975442764252_2_alg».proof.Proof.KernelIdealRead

noncomputable section

namespace Cert.KernelIdeal.Hand

open Idealize.ShloMosaic Idealize.ShloMosaic.TcCoe Idealize.SL.Sem Cert.KernelIdeal Cert.KernelIdeal.Gen
open scoped BigOperators

open Idealize.ShloMosaic.ValueIdx Idealize.ShloMosaic.StableHlo

/-- Entry 6 of the nine: the second power of `-a`. -/
theorem weight6 (m : (ℓ : Loc nD τ sig) → Buf (Elt Ideal) ℓ) (c : Dev nD) :
    V0 (F := Ideal) m c (Proc.devRef .tc main_v36) (ix1 0) = (-(BandDecay.scalarOf (m ((c : Thread nD τ).loc main_arg1)))) ^ 2 := by
  read_entry
  refine (spreadOne_apply _ _ _).trans ?_
  simp only [mulf_apply, hostNeg_apply]
  exact pc2 _

/-- Entry 7 of the nine: `-a` itself. -/
theorem weight7 (m : (ℓ : Loc nD τ sig) → Buf (Elt Ideal) ℓ) (c : Dev nD) :
    V0 (F := Ideal) m c (Proc.devRef .tc main_v37) (ix1 0) = (-(BandDecay.scalarOf (m ((c : Thread nD τ).loc main_arg1)))) ^ 1 := by
  read_entry
  refine (spreadOne_apply _ _ _).trans ?_
  simp only [hostNeg_apply]
  exact (pow_one _).symm

/-- Entry 8 of the nine: the constant one. -/
theorem weight8 (m : (ℓ : Loc nD τ sig) → Buf (Elt Ideal) ℓ) (c : Dev nD) :
    V0 (F := Ideal) m c (Proc.devRef .tc main_v38) (ix1 0) = (-(BandDecay.scalarOf (m ((c : Thread nD τ).loc main_arg1)))) ^ 0 := by
  read_entry
  refine (spreadOne_apply _ _ _).trans ?_
  exact (constant_apply _ _).trans (one_word.trans (pow_zero _).symm)

end Cert.KernelIdeal.Hand

end
-- ==== Proof.KernelIdealCoef.lean ====
/-
  The column of weights the kernel reads, as the region finds it.

  The host forms the nine weights `(-a) ^ 8, …, (-a) ^ 1, 1` as scalars, spreads each to a one-entry buffer, lays the
  nine end to end and cuts the result into a column.  The last two operations are split off the fold, so that the
  column is stated over the nine one-entry buffers as the fold leaves them; each of those was read in its own lemma.
-/
import proofs.«110823_j42975442764252_2_alg».proof.Proof.KernelIdealWeightsA
import proofs.«110823_j42975442764252_2_alg».proof.Proof.KernelIdealWeightsB
import proofs.«110823_j42975442764252_2_alg».proof.Proof.KernelIdealWeightsC
import Idealize.ShloMosaic.Lib.Pipeline.Frame

noncomputable section

namespace Cert.KernelIdeal.Hand

open Idealize.ShloMosaic Idealize.ShloMosaic.TcCoe Idealize.SL.Sem Cert.KernelIdeal Cert.KernelIdeal.Gen
open scoped BigOperators

open Idealize.ShloMosaic.ValueIdx Idealize.ShloMosaic.StableHlo

/-- Nine one-entry pieces laid end to end along the only axis: entry `r` of the result is the entry of piece `r`. -/
theorem concat_nine_apply {α : Type} (u0 u1 u2 u3 u4 u5 u6 u7 u8 : S1.Idx → α)
    (h : Shape.Concatenates (([⟨S1, u0⟩, ⟨S1, u1⟩, ⟨S1, u2⟩, ⟨S1, u3⟩, ⟨S1, u4⟩, ⟨S1, u5⟩, ⟨S1, u6⟩, ⟨S1, u7⟩, ⟨S1, u8⟩] :
      List ((s : Shape) × (s.Idx → α))).map (·.1)) S9 0) (r : Fin 9) :
    concatenate S9 0 [⟨S1, u0⟩, ⟨S1, u1⟩, ⟨S1, u2⟩, ⟨S1, u3⟩, ⟨S1, u4⟩, ⟨S1, u5⟩, ⟨S1, u6⟩, ⟨S1, u7⟩, ⟨S1, u8⟩] h (ix1 r)
      = (![u0, u1, u2, u3, u4, u5, u6, u7, u8] : Fin 9 → S1.Idx → α) r (ix1 0) := by
  refine concatenate_apply_piece (0 : Fin 1) _ h (ix1 r) r.val ?_ S1 _ ?_ rfl r.val ?_ (ix1 0)
    (fun b hb => absurd (Subsingleton.elim _ _) hb) ?_
  · exact r.isLt
  · fin_cases r <;> rfl
  · fin_cases r <;> rfl
  · show r.val + 0 = r.val
    omega

/-- The host operations before the region, all but the last two. -/
abbrev headOps : List (HloOp τ sig (Elt Ideal)) := (List.flatten [hostOps0, hostOps0_1, hostOps0_2]).take 42

/-- The last two: the nine one-entry buffers laid end to end, and the result cut into a column. -/
abbrev tailOps : List (HloOp τ sig (Elt Ideal)) :=
  [ StableHlo.nary ![main_v30, main_v31, main_v32, main_v33, main_v34, main_v35, main_v36, main_v37, main_v38] main_v39 (fun u => concatenate S9 0 [⟨S1, u 0⟩, ⟨S1, u 1⟩, ⟨S1, u 2⟩, ⟨S1, u 3⟩, ⟨S1, u 4⟩, ⟨S1, u 5⟩, ⟨S1, u 6⟩, ⟨S1, u 7⟩, ⟨S1, u 8⟩] concatenates_S1_S1_S1_S1_S1_S1_S1_S1_S1_S9_d0),
    StableHlo.reshape main_v39 main_v40 rfl shapeCasts_S9_S9x1 ]

theorem ops_split : (List.flatten [hostOps0, hostOps0_1, hostOps0_2] : List (HloOp τ sig (Elt Ideal))) = headOps ++ tailOps := rfl

theorem V0_split (m : (ℓ : Loc nD τ sig) → Buf (Elt Ideal) ℓ) (c : Dev nD) :
    V0 (F := Ideal) m c = StableHlo.after tailOps (StableHlo.after headOps (fun b => m (c, b))) := by
  show StableHlo.after (List.flatten [hostOps0, hostOps0_1, hostOps0_2]) (fun b => m (c, b)) = _
  rw [ops_split, StableHlo.after_append]

/-- The column of weights is the nine one-entry buffers laid end to end, cut into a column. -/
theorem coef_concat (m : (ℓ : Loc nD τ sig) → Buf (Elt Ideal) ℓ) (c : Dev nD) :
    (V0 (F := Ideal) m c (Proc.devRef .tc main_v40) : S9x1.Idx → EReal)
      = shapeCast S9x1 (concatenate S9 0
          [⟨S1, V0 (F := Ideal) m c (Proc.devRef .tc main_v30)⟩, ⟨S1, V0 (F := Ideal) m c (Proc.devRef .tc main_v31)⟩,
           ⟨S1, V0 (F := Ideal) m c (Proc.devRef .tc main_v32)⟩, ⟨S1, V0 (F := Ideal) m c (Proc.devRef .tc main_v33)⟩,
           ⟨S1, V0 (F := Ideal) m c (Proc.devRef .tc main_v34)⟩, ⟨S1, V0 (F := Ideal) m c (Proc.devRef .tc main_v35)⟩,
           ⟨S1, V0 (F := Ideal) m c (Proc.devRef .tc main_v36)⟩, ⟨S1, V0 (F := Ideal) m c (Proc.devRef .tc main_v37)⟩,
           ⟨S1, V0 (F := Ideal) m c (Proc.devRef .tc main_v38)⟩] concatenates_S1_S1_S1_S1_S1_S1_S1_S1_S1_S9_d0) shapeCasts_S9_S9x1 := by
  rw [V0_split]
  generalize StableHlo.after headOps (fun b => m (c, b)) = W
  simp only [tailOps, after_cons, after_nil]
  rw [reshape_result, nary_result]
  repeat (first
    | (rw [reshape_result_ne]; rotate_left; decide)
    | (rw [nary_result_ne]; rotate_left; decide))
  rfl

/-- The column of weights at row `r`: the power `(-a) ^ (8 - r)`.  A cut into a column keeps row-major positions, so
    row `r` of the column is entry `r` of the nine laid end to end, which is the one entry of the `r`-th buffer. -/
theorem V0_coef (m : (ℓ : Loc nD τ sig) → Buf (Elt Ideal) ℓ) (c : Dev nD) (r : Fin 9) :
    V0 (F := Ideal) m c (Proc.devRef .tc main_v40) (ValueIdx.ix2 r 0) = (-(BandDecay.scalarOf (m ((c : Thread nD τ).loc main_arg1)))) ^ (8 - r.val) := by
  refine (congrFun (coef_concat m c) (ix2 r 0)).trans ?_
  refine (shapeCast_apply _ _ (ix2 r 0) (ix1 r) ?_).trans ?_
  · rw [Shape.rowMajor_val_one, Shape.rowMajor_val_two]
    show r.val = r.val * 1 + 0
    omega
  refine (concat_nine_apply _ _ _ _ _ _ _ _ _ _ r).trans ?_
  match r with
  | ⟨0, _⟩ => exact weight0 m c
  | ⟨1, _⟩ => exact weight1 m c
  | ⟨2, _⟩ => exact weight2 m c
  | ⟨3, _⟩ => exact weight3 m c
  | ⟨4, _⟩ => exact weight4 m c
  | ⟨5, _⟩ => exact weight5 m c
  | ⟨6, _⟩ => exact weight6 m c
  | ⟨7, _⟩ => exact weight7 m c
  | ⟨8, _⟩ => exact weight8 m c
  | ⟨n + 9, h⟩ => exact absurd h (by omega)

end Cert.KernelIdeal.Hand

end
-- ==== Proof.KernelIdealPieces.lean ====
/-
  The three value lemmas about the kernel program over the extended reals, gathered: the slab the kernel reads
  (the padded signal cut into nine rows), the column of weights (the powers of `-a`), and the value the body stores.
-/
import proofs.«110823_j42975442764252_2_alg».proof.Proof.KernelIdealPayload
import proofs.«110823_j42975442764252_2_alg».proof.Proof.KernelIdealSlab
import proofs.«110823_j42975442764252_2_alg».proof.Proof.KernelIdealCoef
-- ==== Proof.KernelIdealValue.lean ====
/-
  The kernel program's result, read off its run.

  The region has one grid point and its three windows are whole arrays, so the block the body loads from window 0 is
  the whole nine-row slab of the padded signal, the block it loads from window 1 the whole column of nine weights,
  and the block it writes back is the whole one-entry result array.  The payload is the sum over the 755 columns of
  the squared weighted row sums; row `r`, column `t` of the slab is position `755 r + t` of the signal padded with
  twelve leading zeros, and weight `r` is `(-a) ^ (8 - r)`.  So the one entry written back is the closed form
  `kernelLoss`, the reshape after the region hands it on as the program's scalar, and neither argument is touched.
-/
import proofs.«110823_j42975442764252_2_alg».proof.Proof.KernelIdealFrame
import proofs.«110823_j42975442764252_2_alg».proof.Proof.KernelIdealPieces
import proofs.«110823_j42975442764252_2_alg».proof.Proof.Spec
import Idealize.ShloMosaic.Lib.Pipeline.Value
import Idealize.ShloMosaic.Lib.StableHlo.Run

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- Every access of the body starts at the origin of its buffer. -/
theorem origin2 : (![0, 0] : Fin 2 → Nat) = fun _ => 0 := funext fun a => by fin_cases a <;> rfl

/-- The kernel's closed form at core `c`'s launch contents. -/
abbrev lossAt (c : Dev nD) : EReal :=
  BandDecay.kernelLoss (m ((c : Thread nD τ).loc main_arg0)) (BandDecay.scalarOf (m ((c : Thread nD τ).loc main_arg1)))

/-- WHAT THE ONE GRID POINT WRITES BACK: the result window's block, every entry of it the closed form.  The windows
    are whole arrays (every block index is zero), so the two input blocks are the nine rows of the padded signal and
    the column of weights as the region finds them; the payload is the sum over the columns of the squared weighted
    row sums of exactly those. -/
theorem flushed2_eq (c : Dev nD) (t : Fin cfg0.N) :
    (dats (F := Ideal) m 0 c).flushed 2 t = ((cfg0.win 2).blk t).view.read (Elt Ideal) (fun _ => lossAt m c) := by
  show (cfg0.win 2).cut (grid0.coords t) ((dats (F := Ideal) m 0 c).after 2 t) = _
  rw [after0_2]
  unfold out2
  rw [View.canon_unit_zero origin2]
  simp only [View.ld_unit_zero (S := S9x755) origin2, View.ld_unit_zero (S := S9x1) origin2]
  funext j
  show k0_pay1 (F := Ideal) (iblk m c 0 t) (iblk m c 1 t) j = lossAt m c
  rw [pay_eq]
  unfold lossAt BandDecay.kernelLoss BandDecay.kernelBand
  have hrow : ∀ (r : Fin 9) (s : Fin 755),
      iblk (F := Ideal) m c 0 t (ix2 r s) = V0 (F := Ideal) m c (Proc.devRef .tc main_v2) (ix2 r s) := by
    intro r s
    show V (F := Ideal) m c main_v2 (((cfg0.win 0).blk t).view.emb (ix2 r s)) = V (F := Ideal) m c main_v2 (ix2 r s)
    refine congrArg _ (funext fun a => Fin.ext ?_)
    match a with
    | ⟨0, _⟩ => show win0_0.index t (0 : Fin 2) * 9 + 1 * r.val = r.val; rw [show win0_0.index t (0 : Fin 2) = 0 from rfl]; omega
    | ⟨1, _⟩ => show win0_0.index t (1 : Fin 2) * 755 + 1 * s.val = s.val; rw [show win0_0.index t (1 : Fin 2) = 0 from rfl]; omega
  have hcol : ∀ r : Fin 9,
      iblk (F := Ideal) m c 1 t (ix2 r 0) = V0 (F := Ideal) m c (Proc.devRef .tc main_v40) (ix2 r 0) := by
    intro r
    show V (F := Ideal) m c main_v40 (((cfg0.win 1).blk t).view.emb (ix2 r 0)) = V (F := Ideal) m c main_v40 (ix2 r 0)
    refine congrArg _ (funext fun a => Fin.ext ?_)
    match a with
    | ⟨0, _⟩ => show win0_1.index t (0 : Fin 2) * 9 + 1 * r.val = r.val; rw [show win0_1.index t (0 : Fin 2) = 0 from rfl]; omega
    | ⟨1, _⟩ => show win0_1.index t (1 : Fin 2) * 1 + 1 * 0 = 0; rw [show win0_1.index t (1 : Fin 2) = 0 from rfl]
  refine Finset.sum_congr rfl fun s _ => ?_
  refine congrArg₂ (· * ·) ?_ ?_ <;>
    exact Finset.sum_congr rfl fun r _ => by rw [hrow, hcol, V0_slab, V0_coef]

/-- The one point's block is the whole result array. -/
theorem covered2 (i : S1x1.Idx) :
    ∃ t : Fin cfg0.N, (cfg0.win 2).flush t = true ∧ i ∈ ((cfg0.win 2).blk t).view.set := by
  refine ⟨t0_0, flush0_2 t0_0, ?_⟩
  show i ∈ ((View.whole main_v41).slice (win0_2.rect t0_0)).set
  rw [View.set_slice_whole, Rect.mem_set_unit]
  have h0 : (i 0).val < 1 := (i 0).isLt
  have h1 : (i 1).val < 1 := (i 1).isLt
  intro a
  match a with
  | ⟨0, _⟩ => exact (show 0 * 1 ≤ (i 0).val ∧ (i 0).val < 0 * 1 + 1 from by omega)
  | ⟨1, _⟩ => exact (show 0 * 1 ≤ (i 1).val ∧ (i 1).val < 0 * 1 + 1 from by omega)

/-- THE RESULT ARRAY after the run holds the closed form. -/
theorem final2 (c : Dev nD) : (dats (F := Ideal) m 0 c).arrAt 2 cfg0.N = fun _ => lossAt m c :=
  (dats (F := Ideal) m 0 c).arrAt_eq_of_cover 2 (fun _ => lossAt m c) (fun t _ => flushed2_eq m c t) covered2

/-- The reshape after the region hands the result array's one entry on as the program's scalar result. -/
theorem tail_result (c : Dev nD) :
    Pipeline.afterTail₀ cfgs (dats (F := Ideal) m) 0 (V0 m) [hostOps1] c main_v42 = fun _ => lossAt m c := by
  unfold Pipeline.afterTail₀
  show StableHlo.after hostOps1 _ (Proc.devRef .tc main_v42) = _
  after_results
  funext i
  have hw : Pipeline.withArrays (cfgs 0).spec c (V0 m c) (fun w => (dats (F := Ideal) m 0 c).arrAt w (cfgs 0).N)
      (Proc.devRef .tc main_v41) = fun _ => lossAt m c :=
    (Pipeline.withArrays_arr spec0 launch0.win.arr_inj c _ _ 2).trans (final2 m c)
  show shapeCast S_ (Pipeline.withArrays (cfgs 0).spec c (V0 m c) (fun w => (dats (F := Ideal) m 0 c).arrAt w (cfgs 0).N)
      (Proc.devRef .tc main_v41)) shapeCasts_S1x1_S_ i = lossAt m c
  rw [hw]
  rfl

/-- THE KERNEL'S RUN, READ: the program ends with its scalar result at the closed form of its two arguments, and the
    arguments as launched. -/
theorem run_value : θ_run (defs (F := Ideal)) (onTc (τ := τ) (main (F := Ideal))) ⟨m, fun _ => 0, ρ⟩ (fun r => ∀ c : Dev nD,
      r.2.mem ((c.tc : Thread nD τ).loc main_v42) = (fun _ => BandDecay.kernelLoss (m ((c.tc : Thread nD τ).loc main_arg0)) (BandDecay.scalarOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v42 (Pipeline.mem_restRefs_of main_v42 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.RefDiag.lean ====
/-
  One band's call, read as a straight line.

  Each of the nine outlined band builders has the same thirteen operations — ten of its own and the three of the
  select helper it calls — and differs only in the band's length `n`, its offset `k` and the buffers one call
  names.  `diagOps` lists those operations once, over the length, the offset and the buffers; each builder's body
  is then the straight line of that list.
-/
import proofs.«110823_j42975442764252_2_alg».proof.ReferenceIdeal
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- The thirteen operations of one band builder, in order: the zero, the vector padded behind with `k` zeros to
    length 6783, the row and column counters, the offset spread over the matrix, row + offset, its comparison with
    the column, the padded vector as a column, the zero again, and the helper's three — the column spread along
    the rows, the zero spread over the matrix, the selection between them. -/
def diagOps (n k : Nat) (hp : (⟨1, ![n]⟩ : Shape).Pads (![0] : Fin 1 → Nat) ![k] ![0] S6783)
    (arg : TRef sig ⟨⟨1, ![n]⟩, .f32⟩)
    (cst : TRef sig ⟨S_, .f32⟩) (v0 : TRef sig ⟨S6783, .f32⟩) (v1 v2 : TRef sig ⟨S6783x6783, .i32⟩)
    (c : TRef sig ⟨S_, .i32⟩) (v3 v4 : TRef sig ⟨S6783x6783, .i32⟩) (v5 : TRef sig ⟨S6783x6783, .i1⟩)
    (v6 : TRef sig ⟨S6783x1, .f32⟩) (cst_0 : TRef sig ⟨S_, .f32⟩) (φ : fn_where.Bufs) :
    List (HloOp τ sig (Elt F)) :=
  [ TRef.nullary cst (constant S_ .f32 0x00000000#32),
    TRef.binary arg cst v0 (fun x v => pad S6783 ![0] ![k] ![0] x v hp h_S_),
    TRef.nullary v1 (iotaInDim S6783x6783 32 0),
    TRef.nullary v2 (iotaInDim S6783x6783 32 1),
    TRef.nullary c (constantI S_ 32 (BitVec.ofNat 32 k)),
    TRef.unary c v3 (broadcastInDim S6783x6783 ![] bcast_S_S6783x6783),
    TRef.binary v1 v3 v4 addi,
    TRef.binary v4 v2 v5 (cmpi .eq),
    TRef.unary v0 v6 (broadcastInDim S6783x1 ![0] bcast_S6783_S6783x1_0),
    TRef.nullary cst_0 (constant S_ .f32 0x00000000#32),
    TRef.unary v6 φ.v0 (broadcastInDim S6783x6783 ![0, 1] bcast_S6783x1_S6783x6783_0_1),
    TRef.unary cst_0 φ.v1 (broadcastInDim S6783x6783 ![] bcast_S_S6783x6783),
    TRef.ternary v5 φ.v0 φ.v1 φ.v2 select ]

/-- Band 0's builder is the straight line of its thirteen operations: both sides are one chain of steps once
    the helper's body is opened at its call and sequencing is reassociated. -/
theorem fn_diag_eq (arg : TRef sig ⟨S6783, .f32⟩) (φ : fn_diag.Bufs) :
    fn_diag.body (F := F) arg φ
      = seq (diagOps 6783 0 pads_S6783_S6783_000 arg φ.cst φ.v0 φ.v1 φ.v2 φ.c φ.v3 φ.v4 φ.v5 φ.v6 φ.cst_0 φ.call0) := by
  simp only [fn_diag.body, fn_where.body, diagOps, seq, bind_assoc, pure_bind]

/-- Band 1's builder is the straight line of its thirteen operations: both sides are one chain of steps once
    the helper's body is opened at its call and sequencing is reassociated. -/
theorem fn_diag_0_eq (arg : TRef sig ⟨S6028, .f32⟩) (φ : fn_diag_0.Bufs) :
    fn_diag_0.body (F := F) arg φ
      = seq (diagOps 6028 755 pads_S6028_S6783_07550 arg φ.cst φ.v0 φ.v1 φ.v2 φ.c φ.v3 φ.v4 φ.v5 φ.v6 φ.cst_0 φ.call0) := by
  simp only [fn_diag_0.body, fn_where.body, diagOps, seq, bind_assoc, pure_bind]

/-- Band 2's builder is the straight line of its thirteen operations: both sides are one chain of steps once
    the helper's body is opened at its call and sequencing is reassociated. -/
theorem fn_diag_1_eq (arg : TRef sig ⟨S5273, .f32⟩) (φ : fn_diag_1.Bufs) :
    fn_diag_1.body (F := F) arg φ
      = seq (diagOps 5273 1510 pads_S5273_S6783_015100 arg φ.cst φ.v0 φ.v1 φ.v2 φ.c φ.v3 φ.v4 φ.v5 φ.v6 φ.cst_0 φ.call0) := by
  simp only [fn_diag_1.body, fn_where.body, diagOps, seq, bind_assoc, pure_bind]

/-- Band 3's builder is the straight line of its thirteen operations: both sides are one chain of steps once
    the helper's body is opened at its call and sequencing is reassociated. -/
theorem fn_diag_2_eq (arg : TRef sig ⟨S4518, .f32⟩) (φ : fn_diag_2.Bufs) :
    fn_diag_2.body (F := F) arg φ
      = seq (diagOps 4518 2265 pads_S4518_S6783_022650 arg φ.cst φ.v0 φ.v1 φ.v2 φ.c φ.v3 φ.v4 φ.v5 φ.v6 φ.cst_0 φ.call0) := by
  simp only [fn_diag_2.body, fn_where.body, diagOps, seq, bind_assoc, pure_bind]

/-- Band 4's builder is the straight line of its thirteen operations: both sides are one chain of steps once
    the helper's body is opened at its call and sequencing is reassociated. -/
theorem fn_diag_3_eq (arg : TRef sig ⟨S3763, .f32⟩) (φ : fn_diag_3.Bufs) :
    fn_diag_3.body (F := F) arg φ
      = seq (diagOps 3763 3020 pads_S3763_S6783_030200 arg φ.cst φ.v0 φ.v1 φ.v2 φ.c φ.v3 φ.v4 φ.v5 φ.v6 φ.cst_0 φ.call0) := by
  simp only [fn_diag_3.body, fn_where.body, diagOps, seq, bind_assoc, pure_bind]

/-- Band 5's builder is the straight line of its thirteen operations: both sides are one chain of steps once
    the helper's body is opened at its call and sequencing is reassociated. -/
theorem fn_diag_4_eq (arg : TRef sig ⟨S3008, .f32⟩) (φ : fn_diag_4.Bufs) :
    fn_diag_4.body (F := F) arg φ
      = seq (diagOps 3008 3775 pads_S3008_S6783_037750 arg φ.cst φ.v0 φ.v1 φ.v2 φ.c φ.v3 φ.v4 φ.v5 φ.v6 φ.cst_0 φ.call0) := by
  simp only [fn_diag_4.body, fn_where.body, diagOps, seq, bind_assoc, pure_bind]

/-- Band 6's builder is the straight line of its thirteen operations: both sides are one chain of steps once
    the helper's body is opened at its call and sequencing is reassociated. -/
theorem fn_diag_5_eq (arg : TRef sig ⟨S2253, .f32⟩) (φ : fn_diag_5.Bufs) :
    fn_diag_5.body (F := F) arg φ
      = seq (diagOps 2253 4530 pads_S2253_S6783_045300 arg φ.cst φ.v0 φ.v1 φ.v2 φ.c φ.v3 φ.v4 φ.v5 φ.v6 φ.cst_0 φ.call0) := by
  simp only [fn_diag_5.body, fn_where.body, diagOps, seq, bind_assoc, pure_bind]

/-- Band 7's builder is the straight line of its thirteen operations: both sides are one chain of steps once
    the helper's body is opened at its call and sequencing is reassociated. -/
theorem fn_diag_6_eq (arg : TRef sig ⟨S1498, .f32⟩) (φ : fn_diag_6.Bufs) :
    fn_diag_6.body (F := F) arg φ
      = seq (diagOps 1498 5285 pads_S1498_S6783_052850 arg φ.cst φ.v0 φ.v1 φ.v2 φ.c φ.v3 φ.v4 φ.v5 φ.v6 φ.cst_0 φ.call0) := by
  simp only [fn_diag_6.body, fn_where.body, diagOps, seq, bind_assoc, pure_bind]

/-- Band 8's builder is the straight line of its thirteen operations: both sides are one chain of steps once
    the helper's body is opened at its call and sequencing is reassociated. -/
theorem fn_diag_7_eq (arg : TRef sig ⟨S743, .f32⟩) (φ : fn_diag_7.Bufs) :
    fn_diag_7.body (F := F) arg φ
      = seq (diagOps 743 6040 pads_S743_S6783_060400 arg φ.cst φ.v0 φ.v1 φ.v2 φ.c φ.v3 φ.v4 φ.v5 φ.v6 φ.cst_0 φ.call0) := by
  simp only [fn_diag_7.body, fn_where.body, diagOps, seq, bind_assoc, pure_bind]

/-- Every operation of a band builder touches TensorCore buffers only. -/
theorem diagOps_sub (n k : Nat) (hp : (⟨1, ![n]⟩ : Shape).Pads (![0] : Fin 1 → Nat) ![k] ![0] S6783)
    (arg : TRef sig ⟨⟨1, ![n]⟩, .f32⟩)
    (cst : TRef sig ⟨S_, .f32⟩) (v0 : TRef sig ⟨S6783, .f32⟩) (v1 v2 : TRef sig ⟨S6783x6783, .i32⟩)
    (c : TRef sig ⟨S_, .i32⟩) (v3 v4 : TRef sig ⟨S6783x6783, .i32⟩) (v5 : TRef sig ⟨S6783x6783, .i1⟩)
    (v6 : TRef sig ⟨S6783x1, .f32⟩) (cst_0 : TRef sig ⟨S_, .f32⟩) (φ : fn_where.Bufs) :
    ∀ op ∈ diagOps (F := F) n k hp arg cst v0 v1 v2 c v3 v4 v5 v6 cst_0 φ, op.bufs ⊆ tcRefs τ sig := by
  unfold diagOps
  exact List.forall_iff_forall_mem.1 ⟨nullary_bufs_sub .., binary_bufs_sub .., nullary_bufs_sub .., nullary_bufs_sub ..,
    nullary_bufs_sub .., unary_bufs_sub .., binary_bufs_sub .., binary_bufs_sub .., unary_bufs_sub .., nullary_bufs_sub ..,
    unary_bufs_sub .., unary_bufs_sub .., ternary_bufs_sub ..⟩

/-- Every operation of a band builder determines its result. -/
theorem diagOps_fresh (n k : Nat) (hp : (⟨1, ![n]⟩ : Shape).Pads (![0] : Fin 1 → Nat) ![k] ![0] S6783)
    (arg : TRef sig ⟨⟨1, ![n]⟩, .f32⟩)
    (cst : TRef sig ⟨S_, .f32⟩) (v0 : TRef sig ⟨S6783, .f32⟩) (v1 v2 : TRef sig ⟨S6783x6783, .i32⟩)
    (c : TRef sig ⟨S_, .i32⟩) (v3 v4 : TRef sig ⟨S6783x6783, .i32⟩) (v5 : TRef sig ⟨S6783x6783, .i1⟩)
    (v6 : TRef sig ⟨S6783x1, .f32⟩) (cst_0 : TRef sig ⟨S_, .f32⟩) (φ : fn_where.Bufs) :
    ∀ op ∈ diagOps (F := F) n k hp arg cst v0 v1 v2 c v3 v4 v5 v6 cst_0 φ, op.fresh = ∅ := by
  intro _ h
  unfold diagOps at h
  repeat (cases h with | head => rfl | tail _ h => ?_)
  exact nomatch h

end Cert.ReferenceIdeal.Hand

end
-- ==== Proof.RefOpsTable.lean ====
/-
  The main function's operations as lists, in the program's order, cut at its nine calls: stretch `opsA k` is the
  main function's own operations between call k-1 and call k, `opsD k` the thirteen operations of call k over that
  call's buffers, and `ops` their concatenation in order.
-/
import proofs.«110823_j42975442764252_2_alg».proof.Proof.RefDiag

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- The main function's own operations of stretch 0, in order. -/
def opsA0 : List (HloOp τ sig (Elt F)) :=
  [ nullary main_cst (constant S_ .f32 0x00000000#32),
    unary main_cst main_v0 (broadcastInDim S6783x6783 ![] bcast_S_S6783x6783 : (⟨S_, .f32⟩ : BufTy).Contents (Elt F) → (⟨S6783x6783, .f32⟩ : BufTy).Contents (Elt F)),
    unary main_arg1 main_v1 (Host.negf : (⟨S_, .f32⟩ : BufTy).Contents (Elt F) → (⟨S_, .f32⟩ : BufTy).Contents (Elt F)),
    nullary main_cst_0 (constant S_ .f32 0x3F800000#32),
    nullary main_cst_1 (constant S_ .f32 0x3F800000#32),
    unary main_cst_1 main_v2 (broadcastInDim S6783 ![] bcast_S_S6783 : (⟨S_, .f32⟩ : BufTy).Contents (Elt F) → (⟨S6783, .f32⟩ : BufTy).Contents (Elt F)),
    unary main_cst_0 main_v3 (broadcastInDim S6783 ![] bcast_S_S6783 : (⟨S_, .f32⟩ : BufTy).Contents (Elt F) → (⟨S6783, .f32⟩ : BufTy).Contents (Elt F)),
    binary main_v2 main_v3 main_v4 (mulf : (⟨S6783, .f32⟩ : BufTy).Contents (Elt F) → (⟨S6783, .f32⟩ : BufTy).Contents (Elt F) → (⟨S6783, .f32⟩ : BufTy).Contents (Elt F)) ]

/-- The thirteen operations of call 0, over that call's buffers. -/
def opsD0 : List (HloOp τ sig (Elt F)) :=
  diagOps 6783 0 pads_S6783_S6783_000 (.of main_v4) main_call0.cst main_call0.v0 main_call0.v1 main_call0.v2 main_call0.c main_call0.v3 main_call0.v4 main_call0.v5 main_call0.v6 main_call0.cst_0 main_call0.call0

/-- The main function's own operations of stretch 1, in order. -/
def opsA1 : List (HloOp τ sig (Elt F)) :=
  [ binary main_v0 main_v5 main_v6 (addf : (⟨S6783x6783, .f32⟩ : BufTy).Contents (Elt F) → (⟨S6783x6783, .f32⟩ : BufTy).Contents (Elt F) → (⟨S6783x6783, .f32⟩ : BufTy).Contents (Elt F)),
    unary main_arg1 main_v7 (Host.negf : (⟨S_, .f32⟩ : BufTy).Contents (Elt F) → (⟨S_, .f32⟩ : BufTy).Contents (Elt F)),
    nullary main_cst_2 (constant S_ .f32 0x3F800000#32),
    unary main_cst_2 main_v8 (broadcastInDim S6028 ![] bcast_S_S6028 : (⟨S_, .f32⟩ : BufTy).Contents (Elt F) → (⟨S6028, .f32⟩ : BufTy).Contents (Elt F)),
    unary main_v7 main_v9 (broadcastInDim S6028 ![] bcast_S_S6028 : (⟨S_, .f32⟩ : BufTy).Contents (Elt F) → (⟨S6028, .f32⟩ : BufTy).Contents (Elt F)),
    binary main_v8 main_v9 main_v10 (mulf : (⟨S6028, .f32⟩ : BufTy).Contents (Elt F) → (⟨S6028, .f32⟩ : BufTy).Contents (Elt F) → (⟨S6028, .f32⟩ : BufTy).Contents (Elt F)) ]

/-- The thirteen operations of call 1, over that call's buffers. -/
def opsD1 : List (HloOp τ sig (Elt F)) :=
  diagOps 6028 755 pads_S6028_S6783_07550 (.of main_v10) main_call1.cst main_call1.v0 main_call1.v1 main_call1.v2 main_call1.c main_call1.v3 main_call1.v4 main_call1.v5 main_call1.v6 main_call1.cst_0 main_call1.call0

/-- The main function's own operations of stretch 2, in order. -/
def opsA2 : List (HloOp τ sig (Elt F)) :=
  [ binary main_v6 main_v11 main_v12 (addf : (⟨S6783x6783, .f32⟩ : BufTy).Contents (Elt F) → (⟨S6783x6783, .f32⟩ : BufTy).Contents (Elt F) → (⟨S6783x6783, .f32⟩ : BufTy).Contents (Elt F)),
    unary main_arg1 main_v13 (Host.negf : (⟨S_, .f32⟩ : BufTy).Contents (Elt F) → (⟨S_, .f32⟩ : BufTy).Contents (Elt F)),
    binary main_v13 main_v13 main_v14 (mulf : (⟨S_, .f32⟩ : BufTy).Contents (Elt F) → (⟨S_, .f32⟩ : BufTy).Contents (Elt F) → (⟨S_, .f32⟩ : BufTy).Contents (Elt F)),
    nullary main_cst_3 (constant S_ .f32 0x3F800000#32),
    unary main_cst_3 main_v15 (broadcastInDim S5273 ![] bcast_S_S5273 : (⟨S_, .f32⟩ : BufTy).Contents (Elt F) → (⟨S5273, .f32⟩ : BufTy).Contents (Elt F)),
    unary main_v14 main_v16 (broadcastInDim S5273 ![] bcast_S_S5273 : (⟨S_, .f32⟩ : BufTy).Contents (Elt F) → (⟨S5273, .f32⟩ : BufTy).Contents (Elt F)),
    binary main_v15 main_v16 main_v17 (mulf : (⟨S5273, .f32⟩ : BufTy).Contents (Elt F) → (⟨S5273, .f32⟩ : BufTy).Contents (Elt F) → (⟨S5273, .f32⟩ : BufTy).Contents (Elt F)) ]

/-- The thirteen operations of call 2, over that call's buffers. -/
def opsD2 : List (HloOp τ sig (Elt F)) :=
  diagOps 5273 1510 pads_S5273_S6783_015100 (.of main_v17) main_call2.cst main_call2.v0 main_call2.v1 main_call2.v2 main_call2.c main_call2.v3 main_call2.v4 main_call2.v5 main_call2.v6 main_call2.cst_0 main_call2.call0

/-- The main function's own operations of stretch 3, in order. -/
def opsA3 : List (HloOp τ sig (Elt F)) :=
  [ binary main_v12 main_v18 main_v19 (addf : (⟨S6783x6783, .f32⟩ : BufTy).Contents (Elt F) → (⟨S6783x6783, .f32⟩ : BufTy).Contents (Elt F) → (⟨S6783x6783, .f32⟩ : BufTy).Contents (Elt F)),
    unary main_arg1 main_v20 (Host.negf : (⟨S_, .f32⟩ : BufTy).Contents (Elt F) → (⟨S_, .f32⟩ : BufTy).Contents (Elt F)),
    binary main_v20 main_v20 main_v21 (mulf : (⟨S_, .f32⟩ : BufTy).Contents (Elt F) → (⟨S_, .f32⟩ : BufTy).Contents (Elt F) → (⟨S_, .f32⟩ : BufTy).Contents (Elt F)),
    binary main_v21 main_v20 main_v22 (mulf : (⟨S_, .f32⟩ : BufTy).Contents (Elt F) → (⟨S_, .f32⟩ : BufTy).Contents (Elt F) → (⟨S_, .f32⟩ : BufTy).Contents (Elt F)),
    nullary main_cst_4 (constant S_ .f32 0x3F800000#32),
    unary main_cst_4 main_v23 (broadcastInDim S4518 ![] bcast_S_S4518 : (⟨S_, .f32⟩ : BufTy).Contents (Elt F) → (⟨S4518, .f32⟩ : BufTy).Contents (Elt F)),
    unary main_v22 main_v24 (broadcastInDim S4518 ![] bcast_S_S4518 : (⟨S_, .f32⟩ : BufTy).Contents (Elt F) → (⟨S4518, .f32⟩ : BufTy).Contents (Elt F)),
    binary main_v23 main_v24 main_v25 (mulf : (⟨S4518, .f32⟩ : BufTy).Contents (Elt F) → (⟨S4518, .f32⟩ : BufTy).Contents (Elt F) → (⟨S4518, .f32⟩ : BufTy).Contents (Elt F)) ]

/-- The thirteen operations of call 3, over that call's buffers. -/
def opsD3 : List (HloOp τ sig (Elt F)) :=
  diagOps 4518 2265 pads_S4518_S6783_022650 (.of main_v25) main_call3.cst main_call3.v0 main_call3.v1 main_call3.v2 main_call3.c main_call3.v3 main_call3.v4 main_call3.v5 main_call3.v6 main_call3.cst_0 main_call3.call0

/-- The main function's own operations of stretch 4, in order. -/
def opsA4 : List (HloOp τ sig (Elt F)) :=
  [ binary main_v19 main_v26 main_v27 (addf : (⟨S6783x6783, .f32⟩ : BufTy).Contents (Elt F) → (⟨S6783x6783, .f32⟩ : BufTy).Contents (Elt F) → (⟨S6783x6783, .f32⟩ : BufTy).Contents (Elt F)),
    unary main_arg1 main_v28 (Host.negf : (⟨S_, .f32⟩ : BufTy).Contents (Elt F) → (⟨S_, .f32⟩ : BufTy).Contents (Elt F)),
    binary main_v28 main_v28 main_v29 (mulf : (⟨S_, .f32⟩ : BufTy).Contents (Elt F) → (⟨S_, .f32⟩ : BufTy).Contents (Elt F) → (⟨S_, .f32⟩ : BufTy).Contents (Elt F)),
    binary main_v29 main_v29 main_v30 (mulf : (⟨S_, .f32⟩ : BufTy).Contents (Elt F) → (⟨S_, .f32⟩ : BufTy).Contents (Elt F) → (⟨S_, .f32⟩ : BufTy).Contents (Elt F)),
    nullary main_cst_5 (constant S_ .f32 0x3F800000#32),
    unary main_cst_5 main_v31 (broadcastInDim S3763 ![] bcast_S_S3763 : (⟨S_, .f32⟩ : BufTy).Contents (Elt F) → (⟨S3763, .f32⟩ : BufTy).Contents (Elt F)),
    unary main_v30 main_v32 (broadcastInDim S3763 ![] bcast_S_S3763 : (⟨S_, .f32⟩ : BufTy).Contents (Elt F) → (⟨S3763, .f32⟩ : BufTy).Contents (Elt F)),
    binary main_v31 main_v32 main_v33 (mulf : (⟨S3763, .f32⟩ : BufTy).Contents (Elt F) → (⟨S3763, .f32⟩ : BufTy).Contents (Elt F) → (⟨S3763, .f32⟩ : BufTy).Contents (Elt F)) ]

/-- The thirteen operations of call 4, over that call's buffers. -/
def opsD4 : List (HloOp τ sig (Elt F)) :=
  diagOps 3763 3020 pads_S3763_S6783_030200 (.of main_v33) main_call4.cst main_call4.v0 main_call4.v1 main_call4.v2 main_call4.c main_call4.v3 main_call4.v4 main_call4.v5 main_call4.v6 main_call4.cst_0 main_call4.call0

/-- The main function's own operations of stretch 5, in order. -/
def opsA5 : List (HloOp τ sig (Elt F)) :=
  [ binary main_v27 main_v34 main_v35 (addf : (⟨S6783x6783, .f32⟩ : BufTy).Contents (Elt F) → (⟨S6783x6783, .f32⟩ : BufTy).Contents (Elt F) → (⟨S6783x6783, .f32⟩ : BufTy).Contents (Elt F)),
    unary main_arg1 main_v36 (Host.negf : (⟨S_, .f32⟩ : BufTy).Contents (Elt F) → (⟨S_, .f32⟩ : BufTy).Contents (Elt F)),
    binary main_v36 main_v36 main_v37 (mulf : (⟨S_, .f32⟩ : BufTy).Contents (Elt F) → (⟨S_, .f32⟩ : BufTy).Contents (Elt F) → (⟨S_, .f32⟩ : BufTy).Contents (Elt F)),
    binary main_v37 main_v37 main_v38 (mulf : (⟨S_, .f32⟩ : BufTy).Contents (Elt F) → (⟨S_, .f32⟩ : BufTy).Contents (Elt F) → (⟨S_, .f32⟩ : BufTy).Contents (Elt F)),
    binary main_v36 main_v38 main_v39 (mulf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    unary main_cst_6 main_v40 (broadcastInDim S3008 ![] bcast_S_S3008 : (⟨S_, .f32⟩ : BufTy).Contents (Elt F) → (⟨S3008, .f32⟩ : BufTy).Contents (Elt F)),
    unary main_v39 main_v41 (broadcastInDim S3008 ![] bcast_S_S3008 : (⟨S_, .f32⟩ : BufTy).Contents (Elt F) → (⟨S3008, .f32⟩ : BufTy).Contents (Elt F)),
    binary main_v40 main_v41 main_v42 (mulf : (⟨S3008, .f32⟩ : BufTy).Contents (Elt F) → (⟨S3008, .f32⟩ : BufTy).Contents (Elt F) → (⟨S3008, .f32⟩ : BufTy).Contents (Elt F)) ]

/-- The thirteen operations of call 5, over that call's buffers. -/
def opsD5 : List (HloOp τ sig (Elt F)) :=
  diagOps 3008 3775 pads_S3008_S6783_037750 (.of main_v42) main_call5.cst main_call5.v0 main_call5.v1 main_call5.v2 main_call5.c main_call5.v3 main_call5.v4 main_call5.v5 main_call5.v6 main_call5.cst_0 main_call5.call0

/-- The main function's own operations of stretch 6, in order. -/
def opsA6 : List (HloOp τ sig (Elt F)) :=
  [ binary main_v35 main_v43 main_v44 (addf : (⟨S6783x6783, .f32⟩ : BufTy).Contents (Elt F) → (⟨S6783x6783, .f32⟩ : BufTy).Contents (Elt F) → (⟨S6783x6783, .f32⟩ : BufTy).Contents (Elt F)),
    unary main_arg1 main_v45 (Host.negf : (⟨S_, .f32⟩ : BufTy).Contents (Elt F) → (⟨S_, .f32⟩ : BufTy).Contents (Elt F)),
    binary main_v45 main_v45 main_v46 (mulf : (⟨S_, .f32⟩ : BufTy).Contents (Elt F) → (⟨S_, .f32⟩ : BufTy).Contents (Elt F) → (⟨S_, .f32⟩ : BufTy).Contents (Elt F)),
    binary main_v46 main_v46 main_v47 (mulf : (⟨S_, .f32⟩ : BufTy).Contents (Elt F) → (⟨S_, .f32⟩ : BufTy).Contents (Elt F) → (⟨S_, .f32⟩ : BufTy).Contents (Elt F)),
    binary main_v46 main_v47 main_v48 (mulf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    unary main_cst_7 main_v49 (broadcastInDim S2253 ![] bcast_S_S2253 : (⟨S_, .f32⟩ : BufTy).Contents (Elt F) → (⟨S2253, .f32⟩ : BufTy).Contents (Elt F)),
    unary main_v48 main_v50 (broadcastInDim S2253 ![] bcast_S_S2253 : (⟨S_, .f32⟩ : BufTy).Contents (Elt F) → (⟨S2253, .f32⟩ : BufTy).Contents (Elt F)),
    binary main_v49 main_v50 main_v51 (mulf : (⟨S2253, .f32⟩ : BufTy).Contents (Elt F) → (⟨S2253, .f32⟩ : BufTy).Contents (Elt F) → (⟨S2253, .f32⟩ : BufTy).Contents (Elt F)) ]

/-- The thirteen operations of call 6, over that call's buffers. -/
def opsD6 : List (HloOp τ sig (Elt F)) :=
  diagOps 2253 4530 pads_S2253_S6783_045300 (.of main_v51) main_call6.cst main_call6.v0 main_call6.v1 main_call6.v2 main_call6.c main_call6.v3 main_call6.v4 main_call6.v5 main_call6.v6 main_call6.cst_0 main_call6.call0

/-- The main function's own operations of stretch 7, in order. -/
def opsA7 : List (HloOp τ sig (Elt F)) :=
  [ binary main_v44 main_v52 main_v53 (addf : (⟨S6783x6783, .f32⟩ : BufTy).Contents (Elt F) → (⟨S6783x6783, .f32⟩ : BufTy).Contents (Elt F) → (⟨S6783x6783, .f32⟩ : BufTy).Contents (Elt F)),
    unary main_arg1 main_v54 (Host.negf : (⟨S_, .f32⟩ : BufTy).Contents (Elt F) → (⟨S_, .f32⟩ : BufTy).Contents (Elt F)),
    binary main_v54 main_v54 main_v55 (mulf : (⟨S_, .f32⟩ : BufTy).Contents (Elt F) → (⟨S_, .f32⟩ : BufTy).Contents (Elt F) → (⟨S_, .f32⟩ : BufTy).Contents (Elt F)),
    binary main_v54 main_v55 main_v56 (mulf : (⟨S_, .f32⟩ : BufTy).Contents (Elt F) → (⟨S_, .f32⟩ : BufTy).Contents (Elt F) → (⟨S_, .f32⟩ : BufTy).Contents (Elt F)),
    binary main_v55 main_v55 main_v57 (mulf : (⟨S_, .f32⟩ : BufTy).Contents (Elt F) → (⟨S_, .f32⟩ : BufTy).Contents (Elt F) → (⟨S_, .f32⟩ : BufTy).Contents (Elt F)),
    binary main_v56 main_v57 main_v58 (mulf : (⟨S_, .f32⟩ : BufTy).Contents (Elt F) → (⟨S_, .f32⟩ : BufTy).Contents (Elt F) → (⟨S_, .f32⟩ : BufTy).Contents (Elt F)),
    nullary main_cst_8 (constant S_ .f32 0x3F800000#32),
    unary main_cst_8 main_v59 (broadcastInDim S1498 ![] bcast_S_S1498 : (⟨S_, .f32⟩ : BufTy).Contents (Elt F) → (⟨S1498, .f32⟩ : BufTy).Contents (Elt F)),
    unary main_v58 main_v60 (broadcastInDim S1498 ![] bcast_S_S1498 : (⟨S_, .f32⟩ : BufTy).Contents (Elt F) → (⟨S1498, .f32⟩ : BufTy).Contents (Elt F)),
    binary main_v59 main_v60 main_v61 (mulf : (⟨S1498, .f32⟩ : BufTy).Contents (Elt F) → (⟨S1498, .f32⟩ : BufTy).Contents (Elt F) → (⟨S1498, .f32⟩ : BufTy).Contents (Elt F)) ]

/-- The thirteen operations of call 7, over that call's buffers. -/
def opsD7 : List (HloOp τ sig (Elt F)) :=
  diagOps 1498 5285 pads_S1498_S6783_052850 (.of main_v61) main_call7.cst main_call7.v0 main_call7.v1 main_call7.v2 main_call7.c main_call7.v3 main_call7.v4 main_call7.v5 main_call7.v6 main_call7.cst_0 main_call7.call0

/-- The main function's own operations of stretch 8, in order. -/
def opsA8 : List (HloOp τ sig (Elt F)) :=
  [ binary main_v53 main_v62 main_v63 (addf : (⟨S6783x6783, .f32⟩ : BufTy).Contents (Elt F) → (⟨S6783x6783, .f32⟩ : BufTy).Contents (Elt F) → (⟨S6783x6783, .f32⟩ : BufTy).Contents (Elt F)),
    unary main_arg1 main_v64 (Host.negf : (⟨S_, .f32⟩ : BufTy).Contents (Elt F) → (⟨S_, .f32⟩ : BufTy).Contents (Elt F)),
    binary main_v64 main_v64 main_v65 (mulf : (⟨S_, .f32⟩ : BufTy).Contents (Elt F) → (⟨S_, .f32⟩ : BufTy).Contents (Elt F) → (⟨S_, .f32⟩ : BufTy).Contents (Elt F)),
    binary main_v65 main_v65 main_v66 (mulf : (⟨S_, .f32⟩ : BufTy).Contents (Elt F) → (⟨S_, .f32⟩ : BufTy).Contents (Elt F) → (⟨S_, .f32⟩ : BufTy).Contents (Elt F)),
    binary main_v66 main_v66 main_v67 (mulf : (⟨S_, .f32⟩ : BufTy).Contents (Elt F) → (⟨S_, .f32⟩ : BufTy).Contents (Elt F) → (⟨S_, .f32⟩ : BufTy).Contents (Elt F)),
    nullary main_cst_9 (constant S_ .f32 0x3F800000#32),
    unary main_cst_9 main_v68 (broadcastInDim S743 ![] bcast_S_S743 : (⟨S_, .f32⟩ : BufTy).Contents (Elt F) → (⟨S743, .f32⟩ : BufTy).Contents (Elt F)),
    unary main_v67 main_v69 (broadcastInDim S743 ![] bcast_S_S743 : (⟨S_, .f32⟩ : BufTy).Contents (Elt F) → (⟨S743, .f32⟩ : BufTy).Contents (Elt F)),
    binary main_v68 main_v69 main_v70 (mulf : (⟨S743, .f32⟩ : BufTy).Contents (Elt F) → (⟨S743, .f32⟩ : BufTy).Contents (Elt F) → (⟨S743, .f32⟩ : BufTy).Contents (Elt F)) ]

/-- The thirteen operations of call 8, over that call's buffers. -/
def opsD8 : List (HloOp τ sig (Elt F)) :=
  diagOps 743 6040 pads_S743_S6783_060400 (.of main_v70) main_call8.cst main_call8.v0 main_call8.v1 main_call8.v2 main_call8.c main_call8.v3 main_call8.v4 main_call8.v5 main_call8.v6 main_call8.cst_0 main_call8.call0

/-- The main function's own operations of stretch 9, in order. -/
def opsA9 : List (HloOp τ sig (Elt F)) :=
  [ binary main_v63 main_v71 main_v72 (addf : (⟨S6783x6783, .f32⟩ : BufTy).Contents (Elt F) → (⟨S6783x6783, .f32⟩ : BufTy).Contents (Elt F) → (⟨S6783x6783, .f32⟩ : BufTy).Contents (Elt F)),
    binary main_arg0 main_v72 main_v73 ((fun l r => Host.dotGeneral dot_S1x1x6783_S6783x6783_S1x1x6783_2_0_01_1_n_n none l r) : (⟨S1x1x6783, .f32⟩ : BufTy).Contents (Elt F) → (⟨S6783x6783, .f32⟩ : BufTy).Contents (Elt F) → (⟨S1x1x6783, .f32⟩ : BufTy).Contents (Elt F)),
    unary main_v73 main_v74 ((extractStridedSlice S1x1x755 ![0, 0, 6028] · slices_S1x1x6783_S1x1x755_0_0_6028) : (⟨S1x1x6783, .f32⟩ : BufTy).Contents (Elt F) → (⟨S1x1x755, .f32⟩ : BufTy).Contents (Elt F)),
    reshape main_v74 main_v75 rfl shapeCasts_S1x1x755_S755,
    binary main_v75 main_v75 main_v76 (mulf : (⟨S755, .f32⟩ : BufTy).Contents (Elt F) → (⟨S755, .f32⟩ : BufTy).Contents (Elt F) → (⟨S755, .f32⟩ : BufTy).Contents (Elt F)),
    nullary main_cst_10 (constant S_ .f32 0x00000000#32),
    binary main_v76 main_cst_10 main_v77 ((fun x v => Host.reduceAdd x v reducesTo_S755_S_d0 h_S_) : (⟨S755, .f32⟩ : BufTy).Contents (Elt F) → (⟨S_, .f32⟩ : BufTy).Contents (Elt F) → (⟨S_, .f32⟩ : BufTy).Contents (Elt F)) ]

/-- All of the main function's operations, the calls opened, in order. -/
def ops : List (HloOp τ sig (Elt F)) :=
  opsA0 ++ opsD0 ++ opsA1 ++ opsD1 ++ opsA2 ++ opsD2 ++ opsA3 ++ opsD3 ++ opsA4 ++ opsD4 ++ opsA5 ++ opsD5 ++ opsA6 ++ opsD6 ++ opsA7 ++ opsD7 ++ opsA8 ++ opsD8 ++ opsA9

end Cert.ReferenceIdeal.Hand

end
-- ==== Proof.RefMain.lean ====
/-
  The main function is the straight line of its operations, and its run.

  Opening the two windows of the main function, rewriting each of the nine calls to the straight line of its
  thirteen operations and reassociating the sequencing turns the main function into one chain of steps, which is
  the chain of the listed operations.  A straight line of operations over unscoped TensorCore buffers terminates
  from any memory with zero counters, and every buffer ends at the fold of the operations' results over the
  launch contents.
-/
import proofs.«110823_j42975442764252_2_alg».proof.Proof.RefOpsTable

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- The main function is the straight line of `ops`. -/
theorem main_eq (c : Dev nD) : main (F := F) c = seq ops := by
  simp only [main, main_part0, main_part1, fn_diag_eq, fn_diag_0_eq, fn_diag_1_eq, fn_diag_2_eq, fn_diag_3_eq, fn_diag_4_eq,
    fn_diag_5_eq, fn_diag_6_eq, fn_diag_7_eq, ops, opsA0, opsD0, opsA1, opsD1, opsA2, opsD2, opsA3, opsD3, opsA4, opsD4, opsA5, opsD5, opsA6, opsD6, opsA7, opsD7, opsA8, opsD8, opsA9,
    seq_append, seq, bind_assoc, pure_bind]

/-- Membership in a concatenation, for a property of every member. -/
theorem forall_mem_append {α : Type} {p : α → Prop} {l₁ l₂ : List α} (h₁ : ∀ x ∈ l₁, p x) (h₂ : ∀ x ∈ l₂, p x) :
    ∀ x ∈ l₁ ++ l₂, p x := fun x hx => (List.mem_append.mp hx).elim (h₁ x) (h₂ x)

theorem opsA0_sub : ∀ op ∈ (opsA0 : List (HloOp τ sig (Elt F))), op.bufs ⊆ tcRefs τ sig := by
  unfold opsA0
  exact List.forall_iff_forall_mem.1 ⟨nullary_bufs_sub .., unary_bufs_sub .., unary_bufs_sub .., nullary_bufs_sub .., nullary_bufs_sub .., unary_bufs_sub .., unary_bufs_sub .., binary_bufs_sub ..⟩
theorem opsA0_fresh : ∀ op ∈ (opsA0 : List (HloOp τ sig (Elt F))), op.fresh = ∅ := by
  intro _ h
  unfold opsA0 at h
  repeat (cases h with | head => rfl | tail _ h => ?_)
  exact nomatch h

theorem opsA1_sub : ∀ op ∈ (opsA1 : List (HloOp τ sig (Elt F))), op.bufs ⊆ tcRefs τ sig := by
  unfold opsA1
  exact List.forall_iff_forall_mem.1 ⟨binary_bufs_sub .., unary_bufs_sub .., nullary_bufs_sub .., unary_bufs_sub .., unary_bufs_sub .., binary_bufs_sub ..⟩
theorem opsA1_fresh : ∀ op ∈ (opsA1 : List (HloOp τ sig (Elt F))), op.fresh = ∅ := by
  intro _ h
  unfold opsA1 at h
  repeat (cases h with | head => rfl | tail _ h => ?_)
  exact nomatch h

theorem opsA2_sub : ∀ op ∈ (opsA2 : List (HloOp τ sig (Elt F))), op.bufs ⊆ tcRefs τ sig := by
  unfold opsA2
  exact List.forall_iff_forall_mem.1 ⟨binary_bufs_sub .., unary_bufs_sub .., binary_bufs_sub .., nullary_bufs_sub .., unary_bufs_sub .., unary_bufs_sub .., binary_bufs_sub ..⟩
theorem opsA2_fresh : ∀ op ∈ (opsA2 : List (HloOp τ sig (Elt F))), op.fresh = ∅ := by
  intro _ h
  unfold opsA2 at h
  repeat (cases h with | head => rfl | tail _ h => ?_)
  exact nomatch h

theorem opsA3_sub : ∀ op ∈ (opsA3 : List (HloOp τ sig (Elt F))), op.bufs ⊆ tcRefs τ sig := by
  unfold opsA3
  exact List.forall_iff_forall_mem.1 ⟨binary_bufs_sub .., unary_bufs_sub .., binary_bufs_sub .., binary_bufs_sub .., nullary_bufs_sub .., unary_bufs_sub .., unary_bufs_sub .., binary_bufs_sub ..⟩
theorem opsA3_fresh : ∀ op ∈ (opsA3 : List (HloOp τ sig (Elt F))), op.fresh = ∅ := by
  intro _ h
  unfold opsA3 at h
  repeat (cases h with | head => rfl | tail _ h => ?_)
  exact nomatch h

theorem opsA4_sub : ∀ op ∈ (opsA4 : List (HloOp τ sig (Elt F))), op.bufs ⊆ tcRefs τ sig := by
  unfold opsA4
  exact List.forall_iff_forall_mem.1 ⟨binary_bufs_sub .., unary_bufs_sub .., binary_bufs_sub .., binary_bufs_sub .., nullary_bufs_sub .., unary_bufs_sub .., unary_bufs_sub .., binary_bufs_sub ..⟩
theorem opsA4_fresh : ∀ op ∈ (opsA4 : List (HloOp τ sig (Elt F))), op.fresh = ∅ := by
  intro _ h
  unfold opsA4 at h
  repeat (cases h with | head => rfl | tail _ h => ?_)
  exact nomatch h

theorem opsA5_sub : ∀ op ∈ (opsA5 : List (HloOp τ sig (Elt F))), op.bufs ⊆ tcRefs τ sig := by
  unfold opsA5
  exact List.forall_iff_forall_mem.1 ⟨binary_bufs_sub .., unary_bufs_sub .., binary_bufs_sub .., binary_bufs_sub .., binary_bufs_sub .., nullary_bufs_sub .., unary_bufs_sub .., unary_bufs_sub .., binary_bufs_sub ..⟩
theorem opsA5_fresh : ∀ op ∈ (opsA5 : List (HloOp τ sig (Elt F))), op.fresh = ∅ := by
  intro _ h
  unfold opsA5 at h
  repeat (cases h with | head => rfl | tail _ h => ?_)
  exact nomatch h

theorem opsA6_sub : ∀ op ∈ (opsA6 : List (HloOp τ sig (Elt F))), op.bufs ⊆ tcRefs τ sig := by
  unfold opsA6
  exact List.forall_iff_forall_mem.1 ⟨binary_bufs_sub .., unary_bufs_sub .., binary_bufs_sub .., binary_bufs_sub .., binary_bufs_sub .., nullary_bufs_sub .., unary_bufs_sub .., unary_bufs_sub .., binary_bufs_sub ..⟩
theorem opsA6_fresh : ∀ op ∈ (opsA6 : List (HloOp τ sig (Elt F))), op.fresh = ∅ := by
  intro _ h
  unfold opsA6 at h
  repeat (cases h with | head => rfl | tail _ h => ?_)
  exact nomatch h

theorem opsA7_sub : ∀ op ∈ (opsA7 : List (HloOp τ sig (Elt F))), op.bufs ⊆ tcRefs τ sig := by
  unfold opsA7
  exact List.forall_iff_forall_mem.1 ⟨binary_bufs_sub .., unary_bufs_sub .., binary_bufs_sub .., binary_bufs_sub .., binary_bufs_sub .., binary_bufs_sub .., nullary_bufs_sub .., unary_bufs_sub .., unary_bufs_sub .., binary_bufs_sub ..⟩
theorem opsA7_fresh : ∀ op ∈ (opsA7 : List (HloOp τ sig (Elt F))), op.fresh = ∅ := by
  intro _ h
  unfold opsA7 at h
  repeat (cases h with | head => rfl | tail _ h => ?_)
  exact nomatch h

theorem opsA8_sub : ∀ op ∈ (opsA8 : List (HloOp τ sig (Elt F))), op.bufs ⊆ tcRefs τ sig := by
  unfold opsA8
  exact List.forall_iff_forall_mem.1 ⟨binary_bufs_sub .., unary_bufs_sub .., binary_bufs_sub .., binary_bufs_sub .., binary_bufs_sub .., nullary_bufs_sub .., unary_bufs_sub .., unary_bufs_sub .., binary_bufs_sub ..⟩
theorem opsA8_fresh : ∀ op ∈ (opsA8 : List (HloOp τ sig (Elt F))), op.fresh = ∅ := by
  intro _ h
  unfold opsA8 at h
  repeat (cases h with | head => rfl | tail _ h => ?_)
  exact nomatch h

theorem opsA9_sub : ∀ op ∈ (opsA9 : List (HloOp τ sig (Elt F))), op.bufs ⊆ tcRefs τ sig := by
  unfold opsA9
  exact List.forall_iff_forall_mem.1 ⟨binary_bufs_sub .., binary_bufs_sub .., unary_bufs_sub .., reshape_bufs_sub .., binary_bufs_sub .., nullary_bufs_sub .., binary_bufs_sub ..⟩
theorem opsA9_fresh : ∀ op ∈ (opsA9 : List (HloOp τ sig (Elt F))), op.fresh = ∅ := by
  intro _ h
  unfold opsA9 at h
  repeat (cases h with | head => rfl | tail _ h => ?_)
  exact nomatch h

/-- Every operation touches TensorCore buffers only. -/
theorem ops_sub : ∀ op ∈ (ops : List (HloOp τ sig (Elt F))), op.bufs ⊆ tcRefs τ sig := by
  unfold ops opsD0 opsD1 opsD2 opsD3 opsD4 opsD5 opsD6 opsD7 opsD8
  exact forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (opsA0_sub) (diagOps_sub _ _ _ _ _ _ _ _ _ _ _ _ _ _ _)) opsA1_sub) (diagOps_sub _ _ _ _ _ _ _ _ _ _ _ _ _ _ _)) opsA2_sub) (diagOps_sub _ _ _ _ _ _ _ _ _ _ _ _ _ _ _)) opsA3_sub) (diagOps_sub _ _ _ _ _ _ _ _ _ _ _ _ _ _ _)) opsA4_sub) (diagOps_sub _ _ _ _ _ _ _ _ _ _ _ _ _ _ _)) opsA5_sub) (diagOps_sub _ _ _ _ _ _ _ _ _ _ _ _ _ _ _)) opsA6_sub) (diagOps_sub _ _ _ _ _ _ _ _ _ _ _ _ _ _ _)) opsA7_sub) (diagOps_sub _ _ _ _ _ _ _ _ _ _ _ _ _ _ _)) opsA8_sub) (diagOps_sub _ _ _ _ _ _ _ _ _ _ _ _ _ _ _)) opsA9_sub

/-- Every operation determines its result. -/
theorem ops_fresh : ∀ op ∈ (ops : List (HloOp τ sig (Elt F))), op.fresh = ∅ := by
  unfold ops opsD0 opsD1 opsD2 opsD3 opsD4 opsD5 opsD6 opsD7 opsD8
  exact forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (forall_mem_append (opsA0_fresh) (diagOps_fresh _ _ _ _ _ _ _ _ _ _ _ _ _ _ _)) opsA1_fresh) (diagOps_fresh _ _ _ _ _ _ _ _ _ _ _ _ _ _ _)) opsA2_fresh) (diagOps_fresh _ _ _ _ _ _ _ _ _ _ _ _ _ _ _)) opsA3_fresh) (diagOps_fresh _ _ _ _ _ _ _ _ _ _ _ _ _ _ _)) opsA4_fresh) (diagOps_fresh _ _ _ _ _ _ _ _ _ _ _ _ _ _ _)) opsA5_fresh) (diagOps_fresh _ _ _ _ _ _ _ _ _ _ _ _ _ _ _)) opsA6_fresh) (diagOps_fresh _ _ _ _ _ _ _ _ _ _ _ _ _ _ _)) opsA7_fresh) (diagOps_fresh _ _ _ _ _ _ _ _ _ _ _ _ _ _ _)) opsA8_fresh) (diagOps_fresh _ _ _ _ _ _ _ _ _ _ _ _ _ _ _)) opsA9_fresh

theorem scopedRefs_eq : (Finset.univ.filter fun b : Ref sig .tc => b.isScoped) = ∅ := by decide
theorem scopedSems_eq : (Finset.univ.filter fun sm : SemLoc sig => sm.isScoped .tc) = ∅ := by decide

/-- A straight line of operations the main function is equal to runs to its fold: from any memory with zero
    counters every weakly fair execution terminates, and every TensorCore buffer ends at the fold of the
    operations' results over the launch contents. -/
theorem run_after_of (l : List (HloOp τ sig (Elt F))) (hmain : ∀ c : Dev nD, main (F := F) c = seq l)
    (hS : ∀ op ∈ l, op.bufs ⊆ tcRefs τ sig) (hf : ∀ op ∈ l, op.fresh = ∅)
    (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after l (launchContents m c) (b : DevRef τ sig) :=
  run_seq scopedRefs_eq scopedSems_eq defs main (fun _ => l) hmain
    (fun _ => List.forall_iff_forall_mem.2 hS) m ρ (fun _ => hf)

/-- The main function's run, at its operations. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_after_of ops main_eq ops_sub ops_fresh m ρ

end Cert.ReferenceIdeal.Hand

end
-- ==== Proof.RefTerm.lean ====
/-
  The reference program's result as one pure function of its two arguments.

  Each stage below is the operation the program applies, in the program's own argument order, so that the
  composition of the program's ninety-one statements is this term on the nose.  Band `i` (offset `755 * i`,
  length `6783 - 755 * i`) is built from the `i`-th power of the negated parameter, multiplied out along a fixed
  chain; the nine banded matrices are added from the left onto the zero matrix; the signal is contracted against
  the sum, the last 755 outputs are kept, squared and added.
-/
import proofs.«110823_j42975442764252_2_alg».proof.ReferenceIdeal

noncomputable section

namespace Cert.ReferenceIdeal.Hand

open Idealize.ShloMosaic Idealize.ShloMosaic.TcCoe Idealize.SL.Sem Cert.ReferenceIdeal
open Cert.ReferenceIdeal.Facts₀ Cert.ReferenceIdeal.Facts

variable {F : FTy → Type} [FloatOps F] [Facts]

/-- A scalar buffer's contents. -/
abbrev Sc (F : FTy → Type) : Type := (⟨S_, .f32⟩ : BufTy).Contents (Elt F)
/-- A length-`n` vector's contents. -/
abbrev Vc (F : FTy → Type) (n : Nat) : Type := (⟨⟨1, ![n]⟩, .f32⟩ : BufTy).Contents (Elt F)
/-- A 6783 × 6783 matrix's contents. -/
abbrev Mat (F : FTy → Type) : Type := (⟨S6783x6783, .f32⟩ : BufTy).Contents (Elt F)

/-- The scalar constant one. -/
def oneS : Sc F := constant S_ .f32 0x3F800000#32
/-- The scalar constant zero. -/
def zeroS : Sc F := constant S_ .f32 0x00000000#32
/-- The zero matrix. -/
def zeroM : Mat F := broadcastInDim S6783x6783 ![] bcast_S_S6783x6783 (zeroS (F := F))

/-- The negated parameter. -/
def negA (a : Sc F) : Sc F := Host.negf a

/-! The powers of `n`, each multiplied out in the order the program multiplies. -/
def pow2 (n : Sc F) : Sc F := mulf n n
def pow3 (n : Sc F) : Sc F := mulf (mulf n n) n
def pow4 (n : Sc F) : Sc F := mulf (mulf n n) (mulf n n)
def pow5 (n : Sc F) : Sc F := mulf n (mulf (mulf n n) (mulf n n))
def pow6 (n : Sc F) : Sc F := mulf (mulf n n) (mulf (mulf n n) (mulf n n))
def pow7 (n : Sc F) : Sc F := mulf (mulf n (mulf n n)) (mulf (mulf n n) (mulf n n))
def pow8 (n : Sc F) : Sc F := mulf (mulf (mulf n n) (mulf n n)) (mulf (mulf n n) (mulf n n))

/-- A band's vector: the all-ones vector of length `n` times the coefficient spread to length `n`. -/
def bandVec (n : Nat) (hb : S_.BroadcastsInDim (⟨1, ![n]⟩ : Shape) (![] : Fin 0 → Fin 1)) (c : Sc F) : Vc F n :=
  mulf (broadcastInDim (⟨1, ![n]⟩ : Shape) ![] hb (oneS (F := F))) (broadcastInDim (⟨1, ![n]⟩ : Shape) ![] hb c)

/-- A band's matrix: the vector, padded with `k` zeros behind to length 6783, spread along the rows, kept where
    row + `k` = column (as 32-bit integers) and replaced by zero elsewhere. -/
def diagStage (n k : Nat) (hp : (⟨1, ![n]⟩ : Shape).Pads (![0] : Fin 1 → Nat) ![k] ![0] S6783) (v : Vc F n) : Mat F :=
  select
    (cmpi .eq
      (addi (iotaInDim S6783x6783 32 0)
        (broadcastInDim S6783x6783 ![] bcast_S_S6783x6783 (constantI S_ 32 (BitVec.ofNat 32 k))))
      (iotaInDim S6783x6783 32 1))
    (broadcastInDim S6783x6783 ![0, 1] bcast_S6783x1_S6783x6783_0_1
      (broadcastInDim S6783x1 ![0] bcast_S6783_S6783x1_0
        (pad S6783 ![0] ![k] ![0] v (zeroS (F := F)) hp h_S_)))
    (broadcastInDim S6783x6783 ![] bcast_S_S6783x6783 (zeroS (F := F)))

/-! The nine bands. -/
def band0 : Mat F := diagStage 6783 0 pads_S6783_S6783_000 (bandVec 6783 bcast_S_S6783 (oneS (F := F)))
def band1 (n : Sc F) : Mat F := diagStage 6028 755 pads_S6028_S6783_07550 (bandVec 6028 bcast_S_S6028 n)
def band2 (n : Sc F) : Mat F := diagStage 5273 1510 pads_S5273_S6783_015100 (bandVec 5273 bcast_S_S5273 (pow2 n))
def band3 (n : Sc F) : Mat F := diagStage 4518 2265 pads_S4518_S6783_022650 (bandVec 4518 bcast_S_S4518 (pow3 n))
def band4 (n : Sc F) : Mat F := diagStage 3763 3020 pads_S3763_S6783_030200 (bandVec 3763 bcast_S_S3763 (pow4 n))
def band5 (n : Sc F) : Mat F := diagStage 3008 3775 pads_S3008_S6783_037750 (bandVec 3008 bcast_S_S3008 (pow5 n))
def band6 (n : Sc F) : Mat F := diagStage 2253 4530 pads_S2253_S6783_045300 (bandVec 2253 bcast_S_S2253 (pow6 n))
def band7 (n : Sc F) : Mat F := diagStage 1498 5285 pads_S1498_S6783_052850 (bandVec 1498 bcast_S_S1498 (pow7 n))
def band8 (n : Sc F) : Mat F := diagStage 743 6040 pads_S743_S6783_060400 (bandVec 743 bcast_S_S743 (pow8 n))

/-- The banded matrix: the nine bands added from the left onto the zero matrix. -/
def bandSum (n : Sc F) : Mat F :=
  addf (addf (addf (addf (addf (addf (addf (addf (addf (zeroM (F := F)) (band0 (F := F))) (band1 n)) (band2 n)) (band3 n))
    (band4 n)) (band5 n)) (band6 n)) (band7 n)) (band8 n)

/-- The signal contracted against a matrix. -/
def contract (q : (⟨S1x1x6783, .f32⟩ : BufTy).Contents (Elt F)) (A : Mat F) :
    (⟨S1x1x6783, .f32⟩ : BufTy).Contents (Elt F) :=
  Host.dotGeneral dot_S1x1x6783_S6783x6783_S1x1x6783_2_0_01_1_n_n none q A

/-- The last 755 outputs as a vector. -/
def lastOutputs (x : (⟨S1x1x6783, .f32⟩ : BufTy).Contents (Elt F)) : (⟨S755, .f32⟩ : BufTy).Contents (Elt F) :=
  fun i => shapeCast S755 (extractStridedSlice S1x1x755 ![0, 0, 6028] x slices_S1x1x6783_S1x1x755_0_0_6028)
    shapeCasts_S1x1x755_S755 i

/-- The sum of the squares of a length-755 vector, from zero. -/
def energy (y : (⟨S755, .f32⟩ : BufTy).Contents (Elt F)) : Sc F :=
  Host.reduceAdd (mulf y y) (zeroS (F := F)) reducesTo_S755_S_d0 h_S_

/-- The reference program's result as a function of the signal `q` and the parameter `a`. -/
def refTerm (q : (⟨S1x1x6783, .f32⟩ : BufTy).Contents (Elt F)) (a : (⟨S_, .f32⟩ : BufTy).Contents (Elt F)) :
    (⟨S_, .f32⟩ : BufTy).Contents (Elt F) :=
  energy (lastOutputs (contract q (bandSum (negA a))))

end Cert.ReferenceIdeal.Hand

end
-- ==== Proof.RefValA.lean ====
/-
  What each stretch of the main function's own operations leaves in the buffers.

  Run from any contents `W`: the first stretch writes the zero matrix and the first band's vector; stretch k
  (1 ≤ k ≤ 8) adds the previous band's matrix onto the running sum and writes band k's vector — the all-ones
  vector times the k-th power of the negated parameter, multiplied out along the program's chain —; the last
  stretch adds the last band, contracts the signal against the sum, keeps the last 755 outputs, squares and adds
  them.  No stretch writes an argument.  Each equation is the fold of the stretch's operations read at one buffer.
-/
import proofs.«110823_j42975442764252_2_alg».proof.Proof.RefOpsTable
import proofs.«110823_j42975442764252_2_alg».proof.Proof.RefTerm

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

attribute [local irreducible] mulf addf broadcastInDim constant Host.negf in
theorem opsA0_acc (W : Valuation τ sig (Elt F)) :
    after opsA0 W (main_v0 : DevRef τ sig) = zeroM (F := F) := by
  unfold opsA0 zeroM zeroS
  after_results_simp <;> rfl

attribute [local irreducible] mulf addf broadcastInDim constant Host.negf in
theorem opsA0_vec (W : Valuation τ sig (Elt F)) :
    after opsA0 W (main_v4 : DevRef τ sig) = bandVec 6783 bcast_S_S6783 (oneS (F := F)) := by
  unfold opsA0 bandVec oneS
  after_results_simp <;> rfl

theorem opsA0_arg0 (W : Valuation τ sig (Elt F)) :
    after opsA0 W (main_arg0 : DevRef τ sig) = W (main_arg0 : DevRef τ sig) := by
  unfold opsA0
  after_results_simp

theorem opsA0_arg1 (W : Valuation τ sig (Elt F)) :
    after opsA0 W (main_arg1 : DevRef τ sig) = W (main_arg1 : DevRef τ sig) := by
  unfold opsA0
  after_results_simp

/-! ### Stretch 1 -/

attribute [local irreducible] mulf addf broadcastInDim constant Host.negf in
theorem opsA1_acc (W : Valuation τ sig (Elt F)) :
    after opsA1 W (main_v6 : DevRef τ sig) = addf (W (main_v0 : DevRef τ sig)) (W (main_v5 : DevRef τ sig)) := by
  unfold opsA1
  after_results_simp <;> rfl

attribute [local irreducible] mulf addf broadcastInDim constant Host.negf in
theorem opsA1_vec (W : Valuation τ sig (Elt F)) :
    after opsA1 W (main_v10 : DevRef τ sig) = bandVec 6028 bcast_S_S6028 (negA (W (main_arg1 : DevRef τ sig))) := by
  unfold opsA1 bandVec oneS negA
  after_results_simp <;> rfl

theorem opsA1_arg0 (W : Valuation τ sig (Elt F)) :
    after opsA1 W (main_arg0 : DevRef τ sig) = W (main_arg0 : DevRef τ sig) := by
  unfold opsA1
  after_results_simp

theorem opsA1_arg1 (W : Valuation τ sig (Elt F)) :
    after opsA1 W (main_arg1 : DevRef τ sig) = W (main_arg1 : DevRef τ sig) := by
  unfold opsA1
  after_results_simp

/-! ### Stretch 2 -/

attribute [local irreducible] mulf addf broadcastInDim constant Host.negf in
theorem opsA2_acc (W : Valuation τ sig (Elt F)) :
    after opsA2 W (main_v12 : DevRef τ sig) = addf (W (main_v6 : DevRef τ sig)) (W (main_v11 : DevRef τ sig)) := by
  unfold opsA2
  after_results_simp <;> rfl

attribute [local irreducible] mulf addf broadcastInDim constant Host.negf in
theorem opsA2_vec (W : Valuation τ sig (Elt F)) :
    after opsA2 W (main_v17 : DevRef τ sig) = bandVec 5273 bcast_S_S5273 (pow2 (negA (W (main_arg1 : DevRef τ sig)))) := by
  unfold opsA2 bandVec oneS negA pow2
  after_results_simp <;> rfl

theorem opsA2_arg0 (W : Valuation τ sig (Elt F)) :
    after opsA2 W (main_arg0 : DevRef τ sig) = W (main_arg0 : DevRef τ sig) := by
  unfold opsA2
  after_results_simp

theorem opsA2_arg1 (W : Valuation τ sig (Elt F)) :
    after opsA2 W (main_arg1 : DevRef τ sig) = W (main_arg1 : DevRef τ sig) := by
  unfold opsA2
  after_results_simp

/-! ### Stretch 3 -/

attribute [local irreducible] mulf addf broadcastInDim constant Host.negf in
theorem opsA3_acc (W : Valuation τ sig (Elt F)) :
    after opsA3 W (main_v19 : DevRef τ sig) = addf (W (main_v12 : DevRef τ sig)) (W (main_v18 : DevRef τ sig)) := by
  unfold opsA3
  after_results_simp <;> rfl

attribute [local irreducible] mulf addf broadcastInDim constant Host.negf in
theorem opsA3_vec (W : Valuation τ sig (Elt F)) :
    after opsA3 W (main_v25 : DevRef τ sig) = bandVec 4518 bcast_S_S4518 (pow3 (negA (W (main_arg1 : DevRef τ sig)))) := by
  unfold opsA3 bandVec oneS negA pow3
  after_results_simp <;> rfl

theorem opsA3_arg0 (W : Valuation τ sig (Elt F)) :
    after opsA3 W (main_arg0 : DevRef τ sig) = W (main_arg0 : DevRef τ sig) := by
  unfold opsA3
  after_results_simp

theorem opsA3_arg1 (W : Valuation τ sig (Elt F)) :
    after opsA3 W (main_arg1 : DevRef τ sig) = W (main_arg1 : DevRef τ sig) := by
  unfold opsA3
  after_results_simp

/-! ### Stretch 4 -/

attribute [local irreducible] mulf addf broadcastInDim constant Host.negf in
theorem opsA4_acc (W : Valuation τ sig (Elt F)) :
    after opsA4 W (main_v27 : DevRef τ sig) = addf (W (main_v19 : DevRef τ sig)) (W (main_v26 : DevRef τ sig)) := by
  unfold opsA4
  after_results_simp <;> rfl

attribute [local irreducible] mulf addf broadcastInDim constant Host.negf in
theorem opsA4_vec (W : Valuation τ sig (Elt F)) :
    after opsA4 W (main_v33 : DevRef τ sig) = bandVec 3763 bcast_S_S3763 (pow4 (negA (W (main_arg1 : DevRef τ sig)))) := by
  unfold opsA4 bandVec oneS negA pow4
  after_results_simp <;> rfl

theorem opsA4_arg0 (W : Valuation τ sig (Elt F)) :
    after opsA4 W (main_arg0 : DevRef τ sig) = W (main_arg0 : DevRef τ sig) := by
  unfold opsA4
  after_results_simp

theorem opsA4_arg1 (W : Valuation τ sig (Elt F)) :
    after opsA4 W (main_arg1 : DevRef τ sig) = W (main_arg1 : DevRef τ sig) := by
  unfold opsA4
  after_results_simp

/-! ### Stretch 5 -/

attribute [local irreducible] mulf addf broadcastInDim constant Host.negf in
theorem opsA5_acc (W : Valuation τ sig (Elt F)) :
    after opsA5 W (main_v35 : DevRef τ sig) = addf (W (main_v27 : DevRef τ sig)) (W (main_v34 : DevRef τ sig)) := by
  unfold opsA5
  after_results_simp <;> rfl

attribute [local irreducible] mulf addf broadcastInDim constant Host.negf in
theorem opsA5_vec (W : Valuation τ sig (Elt F)) :
    after opsA5 W (main_v42 : DevRef τ sig) = bandVec 3008 bcast_S_S3008 (pow5 (negA (W (main_arg1 : DevRef τ sig)))) := by
  unfold opsA5 bandVec oneS negA pow5
  after_results_simp <;> rfl

theorem opsA5_arg0 (W : Valuation τ sig (Elt F)) :
    after opsA5 W (main_arg0 : DevRef τ sig) = W (main_arg0 : DevRef τ sig) := by
  unfold opsA5
  after_results_simp

theorem opsA5_arg1 (W : Valuation τ sig (Elt F)) :
    after opsA5 W (main_arg1 : DevRef τ sig) = W (main_arg1 : DevRef τ sig) := by
  unfold opsA5
  after_results_simp

/-! ### Stretch 6 -/

attribute [local irreducible] mulf addf broadcastInDim constant Host.negf in
theorem opsA6_acc (W : Valuation τ sig (Elt F)) :
    after opsA6 W (main_v44 : DevRef τ sig) = addf (W (main_v35 : DevRef τ sig)) (W (main_v43 : DevRef τ sig)) := by
  unfold opsA6
  after_results_simp <;> rfl

attribute [local irreducible] mulf addf broadcastInDim constant Host.negf in
theorem opsA6_vec (W : Valuation τ sig (Elt F)) :
    after opsA6 W (main_v51 : DevRef τ sig) = bandVec 2253 bcast_S_S2253 (pow6 (negA (W (main_arg1 : DevRef τ sig)))) := by
  unfold opsA6 bandVec oneS negA pow6
  after_results_simp <;> rfl

theorem opsA6_arg0 (W : Valuation τ sig (Elt F)) :
    after opsA6 W (main_arg0 : DevRef τ sig) = W (main_arg0 : DevRef τ sig) := by
  unfold opsA6
  after_results_simp

theorem opsA6_arg1 (W : Valuation τ sig (Elt F)) :
    after opsA6 W (main_arg1 : DevRef τ sig) = W (main_arg1 : DevRef τ sig) := by
  unfold opsA6
  after_results_simp

/-! ### Stretch 7 -/

attribute [local irreducible] mulf addf broadcastInDim constant Host.negf in
theorem opsA7_acc (W : Valuation τ sig (Elt F)) :
    after opsA7 W (main_v53 : DevRef τ sig) = addf (W (main_v44 : DevRef τ sig)) (W (main_v52 : DevRef τ sig)) := by
  unfold opsA7
  after_results_simp <;> rfl

attribute [local irreducible] mulf addf broadcastInDim constant Host.negf in
theorem opsA7_vec (W : Valuation τ sig (Elt F)) :
    after opsA7 W (main_v61 : DevRef τ sig) = bandVec 1498 bcast_S_S1498 (pow7 (negA (W (main_arg1 : DevRef τ sig)))) := by
  unfold opsA7 bandVec oneS negA pow7
  after_results_simp <;> rfl

theorem opsA7_arg0 (W : Valuation τ sig (Elt F)) :
    after opsA7 W (main_arg0 : DevRef τ sig) = W (main_arg0 : DevRef τ sig) := by
  unfold opsA7
  after_results_simp

theorem opsA7_arg1 (W : Valuation τ sig (Elt F)) :
    after opsA7 W (main_arg1 : DevRef τ sig) = W (main_arg1 : DevRef τ sig) := by
  unfold opsA7
  after_results_simp

/-! ### Stretch 8 -/

attribute [local irreducible] mulf addf broadcastInDim constant Host.negf in
theorem opsA8_acc (W : Valuation τ sig (Elt F)) :
    after opsA8 W (main_v63 : DevRef τ sig) = addf (W (main_v53 : DevRef τ sig)) (W (main_v62 : DevRef τ sig)) := by
  unfold opsA8
  after_results_simp <;> rfl

attribute [local irreducible] mulf addf broadcastInDim constant Host.negf in
theorem opsA8_vec (W : Valuation τ sig (Elt F)) :
    after opsA8 W (main_v70 : DevRef τ sig) = bandVec 743 bcast_S_S743 (pow8 (negA (W (main_arg1 : DevRef τ sig)))) := by
  unfold opsA8 bandVec oneS negA pow8
  after_results_simp <;> rfl

theorem opsA8_arg0 (W : Valuation τ sig (Elt F)) :
    after opsA8 W (main_arg0 : DevRef τ sig) = W (main_arg0 : DevRef τ sig) := by
  unfold opsA8
  after_results_simp

theorem opsA8_arg1 (W : Valuation τ sig (Elt F)) :
    after opsA8 W (main_arg1 : DevRef τ sig) = W (main_arg1 : DevRef τ sig) := by
  unfold opsA8
  after_results_simp

/-! ### The last stretch -/

attribute [local irreducible] mulf addf constant Host.reduceAdd extractStridedSlice shapeCast in
theorem opsA9_res (W : Valuation τ sig (Elt F)) :
    after opsA9 W (main_v77 : DevRef τ sig)
      = energy (lastOutputs (contract (W (main_arg0 : DevRef τ sig)) (addf (W (main_v63 : DevRef τ sig)) (W (main_v71 : DevRef τ sig))))) := by
  unfold opsA9 energy lastOutputs contract zeroS
  after_results_simp <;> rfl

theorem opsA9_arg0 (W : Valuation τ sig (Elt F)) :
    after opsA9 W (main_arg0 : DevRef τ sig) = W (main_arg0 : DevRef τ sig) := by
  unfold opsA9
  after_results_simp

theorem opsA9_arg1 (W : Valuation τ sig (Elt F)) :
    after opsA9 W (main_arg1 : DevRef τ sig) = W (main_arg1 : DevRef τ sig) := by
  unfold opsA9
  after_results_simp

end Cert.ReferenceIdeal.Hand

end
-- ==== Proof.RefValD.lean ====
/-
  What one band's call leaves in the buffers.

  Run from any contents `W`, call k writes the band's matrix — the band stage of the reference term applied to
  the vector it was handed — into its result buffer, and leaves the running sum, and the two arguments, as they
  were: each of its thirteen operations writes a buffer of its own.  A value written through a typed reference and
  read back through the same reference is the value itself; the two remaining transports, at the call's operand
  and at its result, are along equations that hold by computation.
-/
import proofs.«110823_j42975442764252_2_alg».proof.Proof.RefOpsTable
import proofs.«110823_j42975442764252_2_alg».proof.Proof.RefTerm

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Facts]

/-- Contents moved to a typed reference's buffer type and back are unchanged. -/
theorem TRef_ofBuf_toBuf {T : BufTy} (x : TRef sig T) (v : T.Contents (Elt F)) : x.ofBuf (x.toBuf v) = v := by
  obtain ⟨r, rfl, _, _⟩ := x; rfl

/-! ### Call 0 -/

attribute [local irreducible] pad select broadcastInDim cmpi addi iotaInDim constantI constant in
theorem opsD0_res (W : Valuation τ sig (Elt F)) :
    after opsD0 W (main_v5 : DevRef τ sig) = diagStage 6783 0 pads_S6783_S6783_000 (W (main_v4 : DevRef τ sig)) := by
  unfold opsD0 diagOps
  after_results_simp
  simp only [TRef_ofBuf_toBuf]
  rfl

theorem opsD0_acc (W : Valuation τ sig (Elt F)) :
    after opsD0 W (main_v0 : DevRef τ sig) = W (main_v0 : DevRef τ sig) := by
  unfold opsD0 diagOps
  after_results_simp

theorem opsD0_arg0 (W : Valuation τ sig (Elt F)) :
    after opsD0 W (main_arg0 : DevRef τ sig) = W (main_arg0 : DevRef τ sig) := by
  unfold opsD0 diagOps
  after_results_simp

theorem opsD0_arg1 (W : Valuation τ sig (Elt F)) :
    after opsD0 W (main_arg1 : DevRef τ sig) = W (main_arg1 : DevRef τ sig) := by
  unfold opsD0 diagOps
  after_results_simp

/-! ### Call 1 -/

attribute [local irreducible] pad select broadcastInDim cmpi addi iotaInDim constantI constant in
theorem opsD1_res (W : Valuation τ sig (Elt F)) :
    after opsD1 W (main_v11 : DevRef τ sig) = diagStage 6028 755 pads_S6028_S6783_07550 (W (main_v10 : DevRef τ sig)) := by
  unfold opsD1 diagOps
  after_results_simp
  simp only [TRef_ofBuf_toBuf]
  rfl

theorem opsD1_acc (W : Valuation τ sig (Elt F)) :
    after opsD1 W (main_v6 : DevRef τ sig) = W (main_v6 : DevRef τ sig) := by
  unfold opsD1 diagOps
  after_results_simp

theorem opsD1_arg0 (W : Valuation τ sig (Elt F)) :
    after opsD1 W (main_arg0 : DevRef τ sig) = W (main_arg0 : DevRef τ sig) := by
  unfold opsD1 diagOps
  after_results_simp

theorem opsD1_arg1 (W : Valuation τ sig (Elt F)) :
    after opsD1 W (main_arg1 : DevRef τ sig) = W (main_arg1 : DevRef τ sig) := by
  unfold opsD1 diagOps
  after_results_simp

/-! ### Call 2 -/

attribute [local irreducible] pad select broadcastInDim cmpi addi iotaInDim constantI constant in
theorem opsD2_res (W : Valuation τ sig (Elt F)) :
    after opsD2 W (main_v18 : DevRef τ sig) = diagStage 5273 1510 pads_S5273_S6783_015100 (W (main_v17 : DevRef τ sig)) := by
  unfold opsD2 diagOps
  after_results_simp
  simp only [TRef_ofBuf_toBuf]
  rfl

theorem opsD2_acc (W : Valuation τ sig (Elt F)) :
    after opsD2 W (main_v12 : DevRef τ sig) = W (main_v12 : DevRef τ sig) := by
  unfold opsD2 diagOps
  after_results_simp

theorem opsD2_arg0 (W : Valuation τ sig (Elt F)) :
    after opsD2 W (main_arg0 : DevRef τ sig) = W (main_arg0 : DevRef τ sig) := by
  unfold opsD2 diagOps
  after_results_simp

theorem opsD2_arg1 (W : Valuation τ sig (Elt F)) :
    after opsD2 W (main_arg1 : DevRef τ sig) = W (main_arg1 : DevRef τ sig) := by
  unfold opsD2 diagOps
  after_results_simp

/-! ### Call 3 -/

attribute [local irreducible] pad select broadcastInDim cmpi addi iotaInDim constantI constant in
theorem opsD3_res (W : Valuation τ sig (Elt F)) :
    after opsD3 W (main_v26 : DevRef τ sig) = diagStage 4518 2265 pads_S4518_S6783_022650 (W (main_v25 : DevRef τ sig)) := by
  unfold opsD3 diagOps
  after_results_simp
  simp only [TRef_ofBuf_toBuf]
  rfl

theorem opsD3_acc (W : Valuation τ sig (Elt F)) :
    after opsD3 W (main_v19 : DevRef τ sig) = W (main_v19 : DevRef τ sig) := by
  unfold opsD3 diagOps
  after_results_simp

theorem opsD3_arg0 (W : Valuation τ sig (Elt F)) :
    after opsD3 W (main_arg0 : DevRef τ sig) = W (main_arg0 : DevRef τ sig) := by
  unfold opsD3 diagOps
  after_results_simp

theorem opsD3_arg1 (W : Valuation τ sig (Elt F)) :
    after opsD3 W (main_arg1 : DevRef τ sig) = W (main_arg1 : DevRef τ sig) := by
  unfold opsD3 diagOps
  after_results_simp

/-! ### Call 4 -/

attribute [local irreducible] pad select broadcastInDim cmpi addi iotaInDim constantI constant in
theorem opsD4_res (W : Valuation τ sig (Elt F)) :
    after opsD4 W (main_v34 : DevRef τ sig) = diagStage 3763 3020 pads_S3763_S6783_030200 (W (main_v33 : DevRef τ sig)) := by
  unfold opsD4 diagOps
  after_results_simp
  simp only [TRef_ofBuf_toBuf]
  rfl

theorem opsD4_acc (W : Valuation τ sig (Elt F)) :
    after opsD4 W (main_v27 : DevRef τ sig) = W (main_v27 : DevRef τ sig) := by
  unfold opsD4 diagOps
  after_results_simp

theorem opsD4_arg0 (W : Valuation τ sig (Elt F)) :
    after opsD4 W (main_arg0 : DevRef τ sig) = W (main_arg0 : DevRef τ sig) := by
  unfold opsD4 diagOps
  after_results_simp

theorem opsD4_arg1 (W : Valuation τ sig (Elt F)) :
    after opsD4 W (main_arg1 : DevRef τ sig) = W (main_arg1 : DevRef τ sig) := by
  unfold opsD4 diagOps
  after_results_simp

/-! ### Call 5 -/

attribute [local irreducible] pad select broadcastInDim cmpi addi iotaInDim constantI constant in
theorem opsD5_res (W : Valuation τ sig (Elt F)) :
    after opsD5 W (main_v43 : DevRef τ sig) = diagStage 3008 3775 pads_S3008_S6783_037750 (W (main_v42 : DevRef τ sig)) := by
  unfold opsD5 diagOps
  after_results_simp
  simp only [TRef_ofBuf_toBuf]
  rfl

theorem opsD5_acc (W : Valuation τ sig (Elt F)) :
    after opsD5 W (main_v35 : DevRef τ sig) = W (main_v35 : DevRef τ sig) := by
  unfold opsD5 diagOps
  after_results_simp

theorem opsD5_arg0 (W : Valuation τ sig (Elt F)) :
    after opsD5 W (main_arg0 : DevRef τ sig) = W (main_arg0 : DevRef τ sig) := by
  unfold opsD5 diagOps
  after_results_simp

theorem opsD5_arg1 (W : Valuation τ sig (Elt F)) :
    after opsD5 W (main_arg1 : DevRef τ sig) = W (main_arg1 : DevRef τ sig) := by
  unfold opsD5 diagOps
  after_results_simp

/-! ### Call 6 -/

attribute [local irreducible] pad select broadcastInDim cmpi addi iotaInDim constantI constant in
theorem opsD6_res (W : Valuation τ sig (Elt F)) :
    after opsD6 W (main_v52 : DevRef τ sig) = diagStage 2253 4530 pads_S2253_S6783_045300 (W (main_v51 : DevRef τ sig)) := by
  unfold opsD6 diagOps
  after_results_simp
  simp only [TRef_ofBuf_toBuf]
  rfl

theorem opsD6_acc (W : Valuation τ sig (Elt F)) :
    after opsD6 W (main_v44 : DevRef τ sig) = W (main_v44 : DevRef τ sig) := by
  unfold opsD6 diagOps
  after_results_simp

theorem opsD6_arg0 (W : Valuation τ sig (Elt F)) :
    after opsD6 W (main_arg0 : DevRef τ sig) = W (main_arg0 : DevRef τ sig) := by
  unfold opsD6 diagOps
  after_results_simp

theorem opsD6_arg1 (W : Valuation τ sig (Elt F)) :
    after opsD6 W (main_arg1 : DevRef τ sig) = W (main_arg1 : DevRef τ sig) := by
  unfold opsD6 diagOps
  after_results_simp

/-! ### Call 7 -/

attribute [local irreducible] pad select broadcastInDim cmpi addi iotaInDim constantI constant in
theorem opsD7_res (W : Valuation τ sig (Elt F)) :
    after opsD7 W (main_v62 : DevRef τ sig) = diagStage 1498 5285 pads_S1498_S6783_052850 (W (main_v61 : DevRef τ sig)) := by
  unfold opsD7 diagOps
  after_results_simp
  simp only [TRef_ofBuf_toBuf]
  rfl

theorem opsD7_acc (W : Valuation τ sig (Elt F)) :
    after opsD7 W (main_v53 : DevRef τ sig) = W (main_v53 : DevRef τ sig) := by
  unfold opsD7 diagOps
  after_results_simp

theorem opsD7_arg0 (W : Valuation τ sig (Elt F)) :
    after opsD7 W (main_arg0 : DevRef τ sig) = W (main_arg0 : DevRef τ sig) := by
  unfold opsD7 diagOps
  after_results_simp

theorem opsD7_arg1 (W : Valuation τ sig (Elt F)) :
    after opsD7 W (main_arg1 : DevRef τ sig) = W (main_arg1 : DevRef τ sig) := by
  unfold opsD7 diagOps
  after_results_simp

/-! ### Call 8 -/

attribute [local irreducible] pad select broadcastInDim cmpi addi iotaInDim constantI constant in
theorem opsD8_res (W : Valuation τ sig (Elt F)) :
    after opsD8 W (main_v71 : DevRef τ sig) = diagStage 743 6040 pads_S743_S6783_060400 (W (main_v70 : DevRef τ sig)) := by
  unfold opsD8 diagOps
  after_results_simp
  simp only [TRef_ofBuf_toBuf]
  rfl

theorem opsD8_acc (W : Valuation τ sig (Elt F)) :
    after opsD8 W (main_v63 : DevRef τ sig) = W (main_v63 : DevRef τ sig) := by
  unfold opsD8 diagOps
  after_results_simp

theorem opsD8_arg0 (W : Valuation τ sig (Elt F)) :
    after opsD8 W (main_arg0 : DevRef τ sig) = W (main_arg0 : DevRef τ sig) := by
  unfold opsD8 diagOps
  after_results_simp

theorem opsD8_arg1 (W : Valuation τ sig (Elt F)) :
    after opsD8 W (main_arg1 : DevRef τ sig) = W (main_arg1 : DevRef τ sig) := by
  unfold opsD8 diagOps
  after_results_simp

end Cert.ReferenceIdeal.Hand

end
-- ==== Proof.RefRun.lean ====
/-
  The reference program's run, with its result as the reference term.

  The fold of a concatenation of operation lists is the fold of the second list over the fold of the first, so the
  contents after all of the main function's operations are read stretch by stretch, from the last back to the
  first: the result buffer after the last stretch is the energy of the last outputs of the signal contracted
  against the running sum plus the last band; the running sum after stretch k is the sum before plus band k-1;
  band k is the band stage of the vector stretch k wrote; and the two arguments are passed through every stretch
  unchanged.  Unwinding all nineteen stretches gives the reference term at the launch contents of the arguments.
-/
import proofs.«110823_j42975442764252_2_alg».proof.Proof.RefMain
import proofs.«110823_j42975442764252_2_alg».proof.Proof.RefValA
import proofs.«110823_j42975442764252_2_alg».proof.Proof.RefValD
import proofs.«110823_j42975442764252_2_alg».proof.Proof.Gen.ReferenceIdeal
import Idealize.ShloMosaic.PureOps.Ideal

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

section Generic

variable {F : FTy → Type} [FloatOps F] [Facts]

/-- The fold of a concatenation is the fold of the second list over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- After all the operations the result buffer holds the reference term of the arguments' contents. -/
theorem ops_res (V : Valuation τ sig (Elt F)) :
    after ops V (main_v77 : DevRef τ sig)
      = refTerm (V (main_arg0 : DevRef τ sig)) (V (main_arg1 : DevRef τ sig)) := by
  unfold refTerm bandSum band0 band1 band2 band3 band4 band5 band6 band7 band8
  simp only [ops, after_append]
  rw [opsA9_res]
  rw [opsD8_arg0, opsD8_acc, opsD8_res]
  rw [opsA8_arg0, opsA8_acc, opsA8_vec]
  rw [opsD7_arg0, opsD7_arg1, opsD7_acc, opsD7_res]
  rw [opsA7_arg0, opsA7_arg1, opsA7_acc, opsA7_vec]
  rw [opsD6_arg0, opsD6_arg1, opsD6_acc, opsD6_res]
  rw [opsA6_arg0, opsA6_arg1, opsA6_acc, opsA6_vec]
  rw [opsD5_arg0, opsD5_arg1, opsD5_acc, opsD5_res]
  rw [opsA5_arg0, opsA5_arg1, opsA5_acc, opsA5_vec]
  rw [opsD4_arg0, opsD4_arg1, opsD4_acc, opsD4_res]
  rw [opsA4_arg0, opsA4_arg1, opsA4_acc, opsA4_vec]
  rw [opsD3_arg0, opsD3_arg1, opsD3_acc, opsD3_res]
  rw [opsA3_arg0, opsA3_arg1, opsA3_acc, opsA3_vec]
  rw [opsD2_arg0, opsD2_arg1, opsD2_acc, opsD2_res]
  rw [opsA2_arg0, opsA2_arg1, opsA2_acc, opsA2_vec]
  rw [opsD1_arg0, opsD1_arg1, opsD1_acc, opsD1_res]
  rw [opsA1_arg0, opsA1_arg1, opsA1_acc, opsA1_vec]
  rw [opsD0_arg0, opsD0_arg1, opsD0_acc, opsD0_res]
  rw [opsA0_arg0, opsA0_arg1, opsA0_acc, opsA0_vec]

/-- No operation writes the first argument. -/
theorem ops_arg0 (V : Valuation τ sig (Elt F)) :
    after ops V (main_arg0 : DevRef τ sig) = V (main_arg0 : DevRef τ sig) := by
  simp only [ops, after_append]
  rw [opsA9_arg0, opsD8_arg0, opsA8_arg0, opsD7_arg0, opsA7_arg0, opsD6_arg0, opsA6_arg0, opsD5_arg0, opsA5_arg0,
    opsD4_arg0, opsA4_arg0, opsD3_arg0, opsA3_arg0, opsD2_arg0, opsA2_arg0, opsD1_arg0, opsA1_arg0, opsD0_arg0,
    opsA0_arg0]

/-- No operation writes the second argument. -/
theorem ops_arg1 (V : Valuation τ sig (Elt F)) :
    after ops V (main_arg1 : DevRef τ sig) = V (main_arg1 : DevRef τ sig) := by
  simp only [ops, after_append]
  rw [opsA9_arg1, opsD8_arg1, opsA8_arg1, opsD7_arg1, opsA7_arg1, opsD6_arg1, opsA6_arg1, opsD5_arg1, opsA5_arg1,
    opsD4_arg1, opsA4_arg1, opsD3_arg1, opsA3_arg1, opsD2_arg1, opsA2_arg1, opsD1_arg1, opsA1_arg1, opsD0_arg1,
    opsA0_arg1]

/-- For any float values: every weakly fair execution of the main function terminates with the result buffer at
    the reference term of the arguments' launch contents, and the arguments unchanged. -/
theorem run_term_gen (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v77)
          = refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v77).trans (ops_res _), (h c main_arg0).trans (ops_arg0 _),
      (h c main_arg1).trans (ops_arg1 _)⟩) (run_after m ρ)

end Generic

/-- At exact arithmetic: every weakly fair execution of the main function terminates with the result buffer at the
    reference term of the arguments' launch contents, and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v77)
          = refTerm (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_term_gen m ρ

end Cert.ReferenceIdeal.Hand

end
-- ==== Proof.RefReadDiag.lean ====
/-
  One band's matrix read at an entry, over the extended reals.

  The band's vector is padded behind with zeros to length 6783 and spread along the rows; the entry `(l, m)` is kept
  where `l + k = m` — a comparison of 32-bit integers that never wraps, as `l + k` stays below 6783 + 6783 — and is zero
  elsewhere.  On the kept diagonal `l` is below the vector's length, so the padding is never read there.
-/
import proofs.«110823_j42975442764252_2_alg».proof.Proof.RefTerm
import Idealize.ShloMosaic.Lib.ValueIdx
import Idealize.ShloMosaic.Lib.IdealHost
import Idealize.ShloMosaic.Lib.Pipeline.Value

noncomputable section

namespace Cert.ReferenceIdeal.Hand

open Idealize.ShloMosaic Idealize.ShloMosaic.TcCoe Idealize.SL.Sem Cert.ReferenceIdeal
open Idealize.ShloMosaic.ValueIdx
open Cert.ReferenceIdeal.Facts₀ Cert.ReferenceIdeal.Facts

variable [Facts]

/-- Adding a small offset to a row number and comparing with a column number, as 32-bit integers, decides the equation
    of natural numbers. -/
theorem cmpi_add_eq (l k m : Nat) (hl : l < 6783) (hk : k ≤ 6783) (hm : m < 6783) :
    IntOp.cmpi .eq (IntOp.addi (BitVec.ofNat 32 l) (BitVec.ofNat 32 k)) (BitVec.ofNat 32 m)
      = if l + k = m then 1#1 else 0#1 := by
  have e : (IntOp.addi (BitVec.ofNat 32 l) (BitVec.ofNat 32 k) == BitVec.ofNat 32 m) = decide (l + k = m) := by
    rw [Bool.eq_iff_iff, beq_iff_eq, decide_eq_true_iff]
    unfold IntOp.addi
    constructor
    · intro h
      have h' := congrArg BitVec.toNat h
      rw [BitVec.toNat_add, BitVec.toNat_ofNat, BitVec.toNat_ofNat, BitVec.toNat_ofNat] at h'
      omega
    · intro h
      apply BitVec.eq_of_toNat_eq
      rw [BitVec.toNat_add, BitVec.toNat_ofNat, BitVec.toNat_ofNat, BitVec.toNat_ofNat]
      omega
  show BitVec.ofBool (IntOp.addi (BitVec.ofNat 32 l) (BitVec.ofNat 32 k) == BitVec.ofNat 32 m) = _
  rw [e]
  by_cases h : l + k = m
  · rw [if_pos h, decide_eq_true h]; rfl
  · rw [if_neg h, decide_eq_false h]; rfl

/-- A vector of length `n` padded behind to length 6783, read at `l`: the vector below `n`, the padding value from there on. -/
theorem pad_behind_apply {α : Type} (n k : Nat) (hp : (⟨1, ![n]⟩ : Shape).Pads (![0] : Fin 1 → Nat) ![k] ![0] S6783)
    (v : (⟨1, ![n]⟩ : Shape).Idx → α) (z : S_.Idx → α) (hu : 0 < S_.numel) (l : Fin 6783) :
    pad S6783 ![0] ![k] ![0] v z hp hu (ix1 l) = if h : l.val < n then v (ix1 ⟨l.val, h⟩) else z (Shape.Idx.first hu) := by
  unfold pad
  by_cases h : l.val < n
  · rw [dif_pos h, dif_pos]
    · refine congrArg v (funext fun a => Fin.ext ?_)
      match a with
      | ⟨0, _⟩ => show (l.val - 0) / (0 + 1) = l.val; omega
    · intro a
      match a with
      | ⟨0, _⟩ => show 0 ≤ l.val ∧ (l.val - 0) % (0 + 1) = 0 ∧ (l.val - 0) / (0 + 1) < n; omega
  · rw [dif_neg h, dif_neg]
    intro hin
    have e : (l.val - 0) / (0 + 1) < n := (hin (0 : Fin 1)).2.2
    omega

/-- The scalar zero is the extended real zero. -/
theorem zeroS_apply (j : S_.Idx) : zeroS (F := Ideal) j = (0 : EReal) := Ideal.ofBits_zero_f32
/-- The scalar one is the extended real one. -/
theorem oneS_apply (j : S_.Idx) : oneS (F := Ideal) j = (1 : EReal) := Ideal.ofBits_one_f32

/-- A band's matrix at the entry `(l, m)`: the band's vector at `l` on the diagonal `l + k = m`, zero off it. -/
theorem diagStage_apply (n k : Nat) (hnk : n + k = 6783)
    (hp : (⟨1, ![n]⟩ : Shape).Pads (![0] : Fin 1 → Nat) ![k] ![0] S6783) (v : Vc Ideal n) (l m : Fin 6783) :
    diagStage (F := Ideal) n k hp v (ix2 l m)
      = if h : l.val + k = m.val then v (ix1 ⟨l.val, by omega⟩) else (0 : EReal) := by
  have hc : cmpi .eq (addi (iotaInDim S6783x6783 32 0)
        (broadcastInDim S6783x6783 ![] bcast_S_S6783x6783 (constantI S_ 32 (BitVec.ofNat 32 k))))
      (iotaInDim S6783x6783 32 1) (ix2 l m) = if l.val + k = m.val then 1#1 else 0#1 :=
    cmpi_add_eq l.val k m.val l.isLt (by omega) m.isLt
  unfold diagStage
  rw [select_apply, hc]
  by_cases h : l.val + k = m.val
  · rw [if_pos h, dif_pos h, select_one]
    refine (broadcastInDim_apply _ _ _ (ix2 l m) (ix2 l (0 : Fin 1)) ?_).trans ?_
    · intro a
      match a with
      | ⟨0, _⟩ => rfl
      | ⟨1, _⟩ => rfl
    refine (broadcastInDim_apply _ _ _ (ix2 l (0 : Fin 1)) (ix1 l) ?_).trans ?_
    · intro a
      match a with
      | ⟨0, _⟩ => rfl
    rw [pad_behind_apply, dif_pos (by omega)]
  · rw [if_neg h, dif_neg h, select_zero]
    exact (broadcastInDim_scalar_apply _ _ _).trans (zeroS_apply _)

/-- A band's vector is its coefficient at every position: the all-ones vector contributes the factor one. -/
theorem bandVec_apply (n : Nat) (hb : S_.BroadcastsInDim (⟨1, ![n]⟩ : Shape) (![] : Fin 0 → Fin 1)) (c : Sc Ideal)
    (j : Fin n) : bandVec (F := Ideal) n hb c (ix1 j) = c ix0 := by
  unfold bandVec
  rw [mulf_apply]
  refine (congrArg₂ (· * ·) ((broadcastInDim_scalar_apply hb _ _).trans (oneS_apply _))
    (broadcastInDim_scalar_apply hb _ _)).trans ?_
  exact one_mul _

/-- A band's matrix built from a coefficient: the coefficient on the diagonal `l + k = m`, zero off it. -/
theorem diag_band_apply (n k : Nat) (hnk : n + k = 6783)
    (hp : (⟨1, ![n]⟩ : Shape).Pads (![0] : Fin 1 → Nat) ![k] ![0] S6783)
    (hb : S_.BroadcastsInDim (⟨1, ![n]⟩ : Shape) (![] : Fin 0 → Fin 1)) (c : Sc Ideal) (l m : Fin 6783) :
    diagStage (F := Ideal) n k hp (bandVec n hb c) (ix2 l m) = if l.val + k = m.val then c ix0 else (0 : EReal) := by
  rw [diagStage_apply n k hnk]
  by_cases h : l.val + k = m.val
  · rw [dif_pos h, if_pos h, bandVec_apply]
  · rw [dif_neg h, if_neg h]

end Cert.ReferenceIdeal.Hand

end
-- ==== Proof.RefReadSum.lean ====
/-
  The banded matrix read at an entry.

  Each band's coefficient is the negated parameter multiplied out along a fixed chain; over the extended reals,
  where multiplication is commutative and associative, each chain is the matching power.  Adding the nine bands
  from the left onto zero gives, at the entry `(l, m)`, the sum over the bands of `(-a) ^ i` where
  `l + 755 * i = m`.
-/
import proofs.«110823_j42975442764252_2_alg».proof.Proof.RefReadDiag
import proofs.«110823_j42975442764252_2_alg».proof.Proof.Spec

noncomputable section

namespace Cert.ReferenceIdeal.Hand

open Idealize.ShloMosaic Idealize.ShloMosaic.TcCoe Idealize.SL.Sem Cert.ReferenceIdeal
open Idealize.ShloMosaic.ValueIdx
open Cert.ReferenceIdeal.Facts₀ Cert.ReferenceIdeal.Facts

variable [Facts]

/-- The negated parameter at its one index. -/
theorem negA_apply (a : Sc Ideal) (j : S_.Idx) : negA a j = -(a j) := rfl

/-! The multiplication chains are powers. -/
theorem pow2_apply (n : Sc Ideal) : pow2 n ix0 = (n ix0) ^ 2 := by
  show n ix0 * n ix0 = _
  rw [pow_two]
theorem pow3_apply (n : Sc Ideal) : pow3 n ix0 = (n ix0) ^ 3 := by
  show (n ix0 * n ix0) * n ix0 = _
  rw [pow_succ, pow_two]
theorem pow4_apply (n : Sc Ideal) : pow4 n ix0 = (n ix0) ^ 4 := by
  show (n ix0 * n ix0) * (n ix0 * n ix0) = _
  rw [← pow_two (n ix0), ← pow_add]
theorem pow5_apply (n : Sc Ideal) : pow5 n ix0 = (n ix0) ^ 5 := by
  show n ix0 * ((n ix0 * n ix0) * (n ix0 * n ix0)) = _
  rw [← pow_two (n ix0), ← pow_add, ← pow_succ']
theorem pow6_apply (n : Sc Ideal) : pow6 n ix0 = (n ix0) ^ 6 := by
  show (n ix0 * n ix0) * ((n ix0 * n ix0) * (n ix0 * n ix0)) = _
  rw [← pow_two (n ix0), ← pow_add, ← pow_add]
theorem pow7_apply (n : Sc Ideal) : pow7 n ix0 = (n ix0) ^ 7 := by
  show (n ix0 * (n ix0 * n ix0)) * ((n ix0 * n ix0) * (n ix0 * n ix0)) = _
  rw [← pow_two (n ix0), ← pow_succ', ← pow_add, ← pow_add]
theorem pow8_apply (n : Sc Ideal) : pow8 n ix0 = (n ix0) ^ 8 := by
  show ((n ix0 * n ix0) * (n ix0 * n ix0)) * ((n ix0 * n ix0) * (n ix0 * n ix0)) = _
  rw [← pow_two (n ix0), ← pow_add, ← pow_add]

/-- Band `i` at the entry `(l, m)`, once its coefficient is known to be the `i`-th power of `x`. -/
theorem band_apply_aux (n k i : Nat) (hki : k = 755 * i) (hnk : n + k = 6783)
    (hp : (⟨1, ![n]⟩ : Shape).Pads (![0] : Fin 1 → Nat) ![k] ![0] S6783)
    (hb : S_.BroadcastsInDim (⟨1, ![n]⟩ : Shape) (![] : Fin 0 → Fin 1)) (c : Sc Ideal) (x : EReal)
    (hc : c ix0 = x ^ i) (l m : Fin 6783) :
    diagStage (F := Ideal) n k hp (bandVec n hb c) (ix2 l m)
      = if l.val + 755 * i = m.val then x ^ i else (0 : EReal) := by
  subst hki
  rw [diag_band_apply _ _ hnk, hc]

/-- The banded matrix at the entry `(l, m)`. -/
theorem bandSum_apply (a : Sc Ideal) (l m : Fin 6783) :
    bandSum (F := Ideal) (negA a) (ix2 l m) = BandDecay.bandMatrix (BandDecay.scalarOf a) l m := by
  have h0 : band0 (F := Ideal) (ix2 l m) = if l.val + 755 * 0 = m.val then (-(a ix0)) ^ 0 else (0 : EReal) :=
    band_apply_aux 6783 0 0 rfl rfl _ _ _ _ ((oneS_apply _).trans (pow_zero _).symm) l m
  have h1 : band1 (F := Ideal) (negA a) (ix2 l m) = if l.val + 755 * 1 = m.val then (-(a ix0)) ^ 1 else (0 : EReal) :=
    band_apply_aux 6028 755 1 rfl rfl _ _ _ _ ((negA_apply a ix0).trans (pow_one _).symm) l m
  have h2 : band2 (F := Ideal) (negA a) (ix2 l m) = if l.val + 755 * 2 = m.val then (-(a ix0)) ^ 2 else (0 : EReal) :=
    band_apply_aux 5273 1510 2 rfl rfl _ _ _ _ (pow2_apply (negA a)) l m
  have h3 : band3 (F := Ideal) (negA a) (ix2 l m) = if l.val + 755 * 3 = m.val then (-(a ix0)) ^ 3 else (0 : EReal) :=
    band_apply_aux 4518 2265 3 rfl rfl _ _ _ _ (pow3_apply (negA a)) l m
  have h4 : band4 (F := Ideal) (negA a) (ix2 l m) = if l.val + 755 * 4 = m.val then (-(a ix0)) ^ 4 else (0 : EReal) :=
    band_apply_aux 3763 3020 4 rfl rfl _ _ _ _ (pow4_apply (negA a)) l m
  have h5 : band5 (F := Ideal) (negA a) (ix2 l m) = if l.val + 755 * 5 = m.val then (-(a ix0)) ^ 5 else (0 : EReal) :=
    band_apply_aux 3008 3775 5 rfl rfl _ _ _ _ (pow5_apply (negA a)) l m
  have h6 : band6 (F := Ideal) (negA a) (ix2 l m) = if l.val + 755 * 6 = m.val then (-(a ix0)) ^ 6 else (0 : EReal) :=
    band_apply_aux 2253 4530 6 rfl rfl _ _ _ _ (pow6_apply (negA a)) l m
  have h7 : band7 (F := Ideal) (negA a) (ix2 l m) = if l.val + 755 * 7 = m.val then (-(a ix0)) ^ 7 else (0 : EReal) :=
    band_apply_aux 1498 5285 7 rfl rfl _ _ _ _ (pow7_apply (negA a)) l m
  have h8 : band8 (F := Ideal) (negA a) (ix2 l m) = if l.val + 755 * 8 = m.val then (-(a ix0)) ^ 8 else (0 : EReal) :=
    band_apply_aux 743 6040 8 rfl rfl _ _ _ _ (pow8_apply (negA a)) l m
  have hz : zeroM (F := Ideal) (ix2 l m) = (0 : EReal) :=
    (broadcastInDim_scalar_apply _ _ _).trans (zeroS_apply _)
  unfold bandSum BandDecay.bandMatrix BandDecay.scalarOf
  refine Eq.trans ?_ (Fin.sum_univ_eq_sum_range
    (fun i => if l.val + 755 * i = m.val then (-(a ix0)) ^ i else (0 : EReal)) 9).symm
  simp only [Finset.sum_range_succ, Finset.sum_range_zero, addf_apply]
  rw [hz, h0, h1, h2, h3, h4, h5, h6, h7, h8]

end Cert.ReferenceIdeal.Hand

end
-- ==== Proof.RefTail.lean ====
/-
  The end of the reference's computation, read at indices: the signal contracted against a matrix is, at output m,
  the sum over l of q l * A l m; the last 755 outputs are outputs 6028 … 6782; their energy, summed from zero, is the
  plain sum of their squares.
-/
import proofs.«110823_j42975442764252_2_alg».proof.Proof.RefTerm
import proofs.«110823_j42975442764252_2_alg».proof.Proof.Gen.ReferenceIdeal
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.ReferenceIdeal.Hand

open Idealize.ShloMosaic Idealize.ShloMosaic.ValueIdx Cert.ReferenceIdeal
open Cert.ReferenceIdeal.Facts₀ Cert.ReferenceIdeal.Facts
open scoped BigOperators

/-- The contraction at output m: the sum over the contracted position l of q l * A l m. -/
theorem contract_apply (q : (⟨S1x1x6783, .f32⟩ : BufTy).Contents (Elt Ideal)) (A : (⟨S6783x6783, .f32⟩ : BufTy).Contents (Elt Ideal))
    (mm : Fin 6783) :
    contract (F := Ideal) q A (ix3 (0 : Fin 1) (0 : Fin 1) mm) = ∑ l : Fin 6783, q (ix3 0 0 l) * A (ix2 l mm) := by
  unfold contract
  show FloatOps.dotGeneral (F := Ideal) (φ₁ := .f32) (φ₂ := .f32) dot_S1x1x6783_S6783x6783_S1x1x6783_2_0_01_1_n_n none _ (q : FVec Ideal S1x1x6783 .f32) (A : FVec Ideal S6783x6783 .f32) (ix3 (0 : Fin 1) (0 : Fin 1) mm) = _
  rw [Ideal.dotGeneral_apply,
    ← Equiv.sum_comp (contrEquiv1 dot_S1x1x6783_S6783x6783_S1x1x6783_2_0_01_1_n_n 6783 rfl rfl).symm]
  refine Finset.sum_congr rfl fun c _ => ?_
  have c1 := contrEquiv1_symm_val dot_S1x1x6783_S6783x6783_S1x1x6783_2_0_01_1_n_n 6783 rfl rfl c
  have hl : dot_S1x1x6783_S6783x6783_S1x1x6783_2_0_01_1_n_n.lhsIdx (ix3 (0 : Fin 1) (0 : Fin 1) mm)
      ((contrEquiv1 dot_S1x1x6783_S6783x6783_S1x1x6783_2_0_01_1_n_n 6783 rfl rfl).symm c) = ix3 (0 : Fin 1) (0 : Fin 1) c := by
    funext ax; apply Fin.ext
    match ax with
    | ⟨0, _⟩ => simp [DotDims.lhsIdx, dot_S1x1x6783_S6783x6783_S1x1x6783_2_0_01_1_n_n]
    | ⟨1, _⟩ => simp [DotDims.lhsIdx, dot_S1x1x6783_S6783x6783_S1x1x6783_2_0_01_1_n_n]
    | ⟨2, _⟩ => simp [DotDims.lhsIdx, dot_S1x1x6783_S6783x6783_S1x1x6783_2_0_01_1_n_n]; exact c1
  have hr : dot_S1x1x6783_S6783x6783_S1x1x6783_2_0_01_1_n_n.rhsIdx (ix3 (0 : Fin 1) (0 : Fin 1) mm)
      ((contrEquiv1 dot_S1x1x6783_S6783x6783_S1x1x6783_2_0_01_1_n_n 6783 rfl rfl).symm c) = ix2 c mm := by
    funext ax; apply Fin.ext
    match ax with
    | ⟨0, _⟩ => simp [DotDims.rhsIdx, dot_S1x1x6783_S6783x6783_S1x1x6783_2_0_01_1_n_n]; exact c1
    | ⟨1, _⟩ => simp [DotDims.rhsIdx, dot_S1x1x6783_S6783x6783_S1x1x6783_2_0_01_1_n_n]; rfl
  rw [hl, hr]

/-- Output t of the last 755 is output 6028 + t of the whole. -/
theorem lastOutputs_apply (x : (⟨S1x1x6783, .f32⟩ : BufTy).Contents (Elt Ideal)) (t : Fin 755) :
    lastOutputs (F := Ideal) x (ix1 t) = x (ix3 (0 : Fin 1) (0 : Fin 1) (⟨6028 + t.val, by omega⟩ : Fin 6783)) := by
  unfold lastOutputs
  refine (shapeCast_apply _ shapeCasts_S1x1x755_S755 (ix1 t) (ix3 (0 : Fin 1) (0 : Fin 1) t) ?_).trans ?_
  · rw [Shape.rowMajor_val_three, Shape.rowMajor_val_one]
    show ((0 : ℕ) * 1 + 0) * 755 + t.val = t.val
    omega
  · refine extractStridedSlice_apply _ x slices_S1x1x6783_S1x1x755_0_0_6028 (ix3 (0 : Fin 1) (0 : Fin 1) t)
      (ix3 (0 : Fin 1) (0 : Fin 1) (⟨6028 + t.val, by omega⟩ : Fin 6783)) ?_
    intro a
    match a with
    | ⟨0, _⟩ => rfl
    | ⟨1, _⟩ => rfl
    | ⟨2, _⟩ => rfl

/-- A rank-1 index set is its one coordinate's range, -/
def idxEquiv1 {n : Nat} : (⟨1, ![n]⟩ : Shape).Idx ≃ Fin n where
  toFun i := i 0
  invFun p := ix1 p
  left_inv i := (eq_ix1 i).symm
  right_inv _ := rfl
/-- so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The energy of a length-755 vector, summed from zero: the plain sum of the squares. -/
theorem energy_apply (y : (⟨S755, .f32⟩ : BufTy).Contents (Elt Ideal)) (j : S_.Idx) :
    energy (F := Ideal) y j = ∑ t : Fin 755, y (ix1 t) * y (ix1 t) := by
  unfold energy
  rw [hostReduceAdd_apply, Ideal.hostReduceAdd_total reducesTo_S755_S_d0 (fun b => b.elim0)]
  have h0 : zeroS (F := Ideal) (Shape.Idx.first h_S_) = 0 := by
    unfold zeroS; rw [constant_apply]; exact Ideal.ofBits_zero_f32
  rw [h0, zero_add]
  exact sum_idx1 (n := 755) _

/-- The reference's tail: the energy of the last 755 outputs of the contraction, as a double sum. -/
theorem tail_read (q : (⟨S1x1x6783, .f32⟩ : BufTy).Contents (Elt Ideal)) (A : (⟨S6783x6783, .f32⟩ : BufTy).Contents (Elt Ideal)) :
    energy (F := Ideal) (lastOutputs (contract q A)) = fun _ =>
      ∑ t : Fin 755, (∑ l : Fin 6783, q (ValueIdx.ix3 0 0 l) * A (ValueIdx.ix2 l ⟨6028 + t.val, by omega⟩))
        * (∑ l : Fin 6783, q (ValueIdx.ix3 0 0 l) * A (ValueIdx.ix2 l ⟨6028 + t.val, by omega⟩)) := by
  funext j
  rw [energy_apply]
  refine Finset.sum_congr rfl fun t _ => ?_
  rw [lastOutputs_apply, contract_apply]

end Cert.ReferenceIdeal.Hand

end
-- ==== Proof.RefRead.lean ====
/-
  The reference program's result is the closed form: the energy of the last 755 outputs of the signal contracted
  against the banded matrix.

  The end of the computation reads, at each of the last 755 outputs, the sum over the rows of signal times matrix
  entry; the matrix entry is the banded matrix's; the sum of the squares is the reference's loss.
-/
import proofs.«110823_j42975442764252_2_alg».proof.Proof.RefReadSum
import proofs.«110823_j42975442764252_2_alg».proof.Proof.RefTail

noncomputable section

namespace Cert.ReferenceIdeal.Hand

open Idealize.ShloMosaic Idealize.ShloMosaic.TcCoe Idealize.SL.Sem Cert.ReferenceIdeal
open Idealize.ShloMosaic.ValueIdx
open Cert.ReferenceIdeal.Facts₀ Cert.ReferenceIdeal.Facts

variable [Facts]

/-- The reference's term is the closed form `refLoss` of the signal and the parameter's one entry. -/
theorem refTerm_eq (q : (⟨S1x1x6783, .f32⟩ : BufTy).Contents (Elt Ideal)) (a : (⟨S_, .f32⟩ : BufTy).Contents (Elt Ideal)) :
    refTerm (F := Ideal) q a = fun _ => BandDecay.refLoss q (BandDecay.scalarOf a) := by
  unfold refTerm
  rw [tail_read]
  funext _
  unfold BandDecay.refLoss BandDecay.refBand
  refine Finset.sum_congr rfl fun t _ => ?_
  have e : (∑ l : Fin 6783, q (ix3 0 0 l) * bandSum (F := Ideal) (negA a) (ix2 l ⟨6028 + t.val, by omega⟩))
      = ∑ l : Fin 6783, q (ix3 0 0 l) * BandDecay.bandMatrix (BandDecay.scalarOf a) l ⟨6028 + t.val, by omega⟩ :=
    Finset.sum_congr rfl fun l _ => by rw [bandSum_apply]
  rw [e]

end Cert.ReferenceIdeal.Hand

end
-- ==== Proof.lean ====
/-
  The banded-decay energy: the kernel's band sum against the reference's dense banded product.

  For a signal `q` of 6783 entries and a parameter `a`, band `i = 0 … 8` of the banded matrix carries the weight
  `(-a) ^ i` on the diagonal at offset `755 i`.  The reference forms the dense 6783 × 6783 matrix, contracts the
  signal against it and sums the squares of the last 755 outputs.  The kernel never forms the matrix: it pads the
  signal with twelve zeros in front (6795 = 9 · 755 entries), cuts it into nine rows of 755, weights row `r` by
  `(-a) ^ (8 - r)`, adds the rows and sums the squares of the 755 column sums.

  * `Spec` states both results as finite sums over the extended reals (`kernelLoss`, `refLoss`).
  * `KernelIdealFrame` / `KernelFrame` run the kernel program (host operations, the one-point region, a reshape) and
    show its arguments end as launched; `KernelIdealValue` reads the same run's result off as `kernelLoss`.
  * `RefRun` runs the reference's straight line of host operations to one pure term; `RefRead` reads that term down
    to `refLoss`.
  * `FiniteInputs` turns the precondition into "every entry is a real number", and `BandAlgebra` proves that for
    real entries `kernelLoss = refLoss`: each band's diagonal meets output column `6028 + t` in exactly one row,
    that row is position `755 (8 - i) + t - 12` of the signal, and the band that falls off the front is a padding zero.
  The ideal pass rewrote nothing in the kernel, so the kernel's idealization is its own text.
-/
import proofs.«110823_j42975442764252_2_alg».proof.Defs
import proofs.«110823_j42975442764252_2_alg».proof.Proof.Gen.Kernel
import proofs.«110823_j42975442764252_2_alg».proof.Proof.Gen.KernelIdeal
import proofs.«110823_j42975442764252_2_alg».proof.Proof.Gen.ReferenceIdeal
import proofs.«110823_j42975442764252_2_alg».proof.Proof.Gen.Pre_finite_inputs
import proofs.«110823_j42975442764252_2_alg».proof.Proof.Spec
import proofs.«110823_j42975442764252_2_alg».proof.Proof.BandAlgebra
import proofs.«110823_j42975442764252_2_alg».proof.Proof.FiniteInputs
import proofs.«110823_j42975442764252_2_alg».proof.Proof.KernelFrame
import proofs.«110823_j42975442764252_2_alg».proof.Proof.KernelIdealFrame
import proofs.«110823_j42975442764252_2_alg».proof.Proof.KernelIdealValue
import proofs.«110823_j42975442764252_2_alg».proof.Proof.RefRun
import proofs.«110823_j42975442764252_2_alg».proof.Proof.RefRead

noncomputable section

open Idealize.ShloMosaic Idealize.ShloMosaic.TcCoe Idealize.SL.Sem Idealize.ShloMosaic.ValueIdx

namespace Cert.Proof

theorem frame_k : Cert.frame_Kernel := fun m ρ _ => Cert.Kernel.Hand.frame m ρ

theorem frame_ki : Cert.frame_KernelIdeal := fun m ρ _ => Cert.KernelIdeal.Hand.frame m ρ

/-- The reference's run ends at the closed form `refLoss` of its arguments, which end unchanged. -/
theorem ref_run_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v77)
            = (fun _ => BandDecay.refLoss (m ((c.tc : Thread Cert.ReferenceIdeal.nD Cert.ReferenceIdeal.τ).loc Cert.ReferenceIdeal.main_arg0))
                (BandDecay.scalarOf (m ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono
    (fun _ h c => ⟨(h c).1.trans (Cert.ReferenceIdeal.Hand.refTerm_eq _ _), (h c).2⟩)
    (Cert.ReferenceIdeal.Hand.run_term m ρ)

theorem frame_ri : Cert.frame_ReferenceIdeal := fun m ρ _ =>
  (θ_run Cert.ReferenceIdeal.defs _ _).mono (fun _ h c => (h c).2) (ref_run_value m ρ)

theorem preserves : Cert.preserves_Kernel_KernelIdeal := trivial

/-- Both idealized programs end, from memories agreeing on the arguments, with the same extended real: the kernel
    at the sum over the 755 columns of the squared weighted row sums of the padded signal, the reference at the
    energy of the last 755 outputs of the banded product; for finite inputs these are one number. -/
theorem algebraic : Cert.algebraic_KernelIdeal_ReferenceIdeal := by
  intro m ρ m' ρ' hpre hagree
  refine ⟨fun c _ => BandDecay.kernelLoss (m ((c.tc : Thread Cert.KernelIdeal.nD Cert.KernelIdeal.τ).loc Cert.KernelIdeal.main_arg0))
      (BandDecay.scalarOf (m ((c.tc : Thread Cert.KernelIdeal.nD Cert.KernelIdeal.τ).loc Cert.KernelIdeal.main_arg1))),
    Cert.KernelIdeal.Hand.run_value m ρ, ?_⟩
  refine (θ_run Cert.ReferenceIdeal.defs _ _).mono (fun _ h c => ⟨(h c).1.trans ?_, (h c).2⟩) (ref_run_value m' ρ')
  rw [(hagree c).1, (hagree c).2]
  obtain ⟨hq, y, hy⟩ := BandDecay.finite_of_pre _ _ (hpre c)
  choose x hx using hq
  funext _
  exact (BandDecay.loss_eq _ _ (fun l => x (ix3 0 0 l)) y (fun l => hx _) hy).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
